-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x10 .f32) (main_arg11 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg10
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x10 .f32) (main_arg11 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x10 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S100000 : Shape := ⟨1, ![100000]⟩
abbrev S900000 : Shape := ⟨1, ![900000]⟩
abbrev S900000x1 : Shape := ⟨2, ![900000, 1]⟩
abbrev S900000x64 : Shape := ⟨2, ![900000, 64]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 95
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S100000x64, .f32⟩
  | .hbm, ⟨27, _⟩ => ⟨S800000x1, .i32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S100000x64, .f32⟩
  | .hbm, ⟨42, _⟩ => ⟨S800000x1, .i32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S100000, .i32⟩
  | .hbm, ⟨48, _⟩ => ⟨S900000, .i32⟩
  | .hbm, ⟨49, _⟩ => ⟨S900000, .i32⟩
  | .hbm, ⟨50, _⟩ => ⟨S_, .f32⟩
  | .hbm, ⟨51, _⟩ => ⟨S900000, .f32⟩
  | .hbm, ⟨52, _⟩ => ⟨S_, .f32⟩
  | .hbm, ⟨53, _⟩ => ⟨S100000, .f32⟩
  | .hbm, ⟨54, _⟩ => ⟨S900000x1, .i32⟩
  | .hbm, ⟨55, _⟩ => ⟨S100000, .f32⟩
  | .hbm, ⟨56, _⟩ => ⟨S100000, .f32⟩
  | .hbm, ⟨57, _⟩ => ⟨S_, .i32⟩
  | .hbm, ⟨58, _⟩ => ⟨S900000, .i32⟩
  | .hbm, ⟨59, _⟩ => ⟨S900000, .i1⟩
  | .hbm, ⟨60, _⟩ => ⟨S_, .i32⟩
  | .hbm, ⟨61, _⟩ => ⟨S900000, .i32⟩
  | .hbm, ⟨62, _⟩ => ⟨S900000, .i32⟩
  | .hbm, ⟨63, _⟩ => ⟨S900000, .i32⟩
  | .hbm, ⟨64, _⟩ => ⟨S900000x1, .i32⟩
  | .hbm, ⟨65, _⟩ => ⟨S900000, .f32⟩
  | .hbm, ⟨66, _⟩ => ⟨S_, .i32⟩
  | .hbm, ⟨67, _⟩ => ⟨S900000, .i32⟩
  | .hbm, ⟨68, _⟩ => ⟨S900000, .i1⟩
  | .hbm, ⟨69, _⟩ => ⟨S_, .i32⟩
  | .hbm, ⟨70, _⟩ => ⟨S900000, .i32⟩
  | .hbm, ⟨71, _⟩ => ⟨S900000, .i32⟩
  | .hbm, ⟨72, _⟩ => ⟨S900000, .i32⟩
  | .hbm, ⟨73, _⟩ => ⟨S900000x1, .i32⟩
  | .hbm, ⟨74, _⟩ => ⟨S900000, .f32⟩
  | .hbm, ⟨75, _⟩ => ⟨S900000, .f32⟩
  | .hbm, ⟨76, _⟩ => ⟨S_, .i32⟩
  | .hbm, ⟨77, _⟩ => ⟨S900000, .i32⟩
  | .hbm, ⟨78, _⟩ => ⟨S900000, .i1⟩
  | .hbm, ⟨79, _⟩ => ⟨S_, .i32⟩
  | .hbm, ⟨80, _⟩ => ⟨S900000, .i32⟩
  | .hbm, ⟨81, _⟩ => ⟨S900000, .i32⟩
  | .hbm, ⟨82, _⟩ => ⟨S900000, .i32⟩
  | .hbm, ⟨83, _⟩ => ⟨S900000x1, .i32⟩
  | .hbm, ⟨84, _⟩ => ⟨S900000x64, .f32⟩
  | .hbm, ⟨85, _⟩ => ⟨S900000x1, .f32⟩
  | .hbm, ⟨86, _⟩ => ⟨S900000x64, .f32⟩
  | .hbm, ⟨87, _⟩ => ⟨S900000x64, .f32⟩
  | .hbm, ⟨88, _⟩ => ⟨S_, .f32⟩
  | .hbm, ⟨89, _⟩ => ⟨S100000x64, .f32⟩
  | .hbm, ⟨90, _⟩ => ⟨S900000x1, .i32⟩
  | .hbm, ⟨91, _⟩ => ⟨S100000x64, .f32⟩
  | .hbm, ⟨92, _⟩ => ⟨S1x64, .f32⟩
  | .hbm, ⟨93, _⟩ => ⟨S1x10, .f32⟩
  | .hbm, ⟨94, _⟩ => ⟨S100000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S64x10, .f32⟩
  | .local _ .vmem, ⟨27, _⟩ => ⟨S1x10, .f32⟩
  | .local _ .vmem, ⟨28, _⟩ => ⟨S5000x10, .f32⟩
  | .local _ .vmem, ⟨29, _⟩ => ⟨S5000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x64_S5000x64_1_0_0_1_n_n_wf : DotDims.WF S5000x64 S64x64 S5000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x10.size a ≤ S100000x10.size a
  hwx3_4 : ∀ i : grid3.Coords, EltTy.bits .f32 = 32 ∨ (Rect.block (s := S100000x10) S5000x10.size (cc3_transform_4 i) (hinb3_4 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S5000x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S100000 : Shape := ⟨1, ![100000]⟩
abbrev S900000 : Shape := ⟨1, ![900000]⟩
abbrev S900000x1 : Shape := ⟨2, ![900000, 1]⟩
abbrev S900000x64 : Shape := ⟨2, ![900000, 64]⟩
abbrev S100000x10 : Shape := ⟨2, ![100000, 10]⟩
abbrev S1x10 : Shape := ⟨2, ![1, 10]⟩

abbrev nBuf : Space → Nat
  | .hbm => 113
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S100000x64, .f32⟩
  | .hbm, ⟨27, _⟩ => ⟨S800000x1, .i32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S100000x64, .f32⟩
  | .hbm, ⟨49, _⟩ => ⟨S800000x1, .i32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000, .i32⟩
  | .hbm, ⟨62, _⟩ => ⟨S900000, .i32⟩
  | .hbm, ⟨63, _⟩ => ⟨S900000, .i32⟩
  | .hbm, ⟨64, _⟩ => ⟨S_, .f32⟩
  | .hbm, ⟨65, _⟩ => ⟨S900000, .f32⟩
  | .hbm, ⟨66, _⟩ => ⟨S_, .f32⟩
  | .hbm, ⟨67, _⟩ => ⟨S100000, .f32⟩
  | .hbm, ⟨68, _⟩ => ⟨S900000x1, .i32⟩
  | .hbm, ⟨69, _⟩ => ⟨S100000, .f32⟩
  | .hbm, ⟨70, _⟩ => ⟨S100000, .f32⟩
  | .hbm, ⟨71, _⟩ => ⟨S_, .i32⟩
  | .hbm, ⟨72, _⟩ => ⟨S900000, .i32⟩
  | .hbm, ⟨73, _⟩ => ⟨S900000, .i1⟩
  | .hbm, ⟨74, _⟩ => ⟨S_, .i32⟩
  | .hbm, ⟨75, _⟩ => ⟨S900000, .i32⟩
  | .hbm, ⟨76, _⟩ => ⟨S900000, .i32⟩
  | .hbm, ⟨77, _⟩ => ⟨S900000, .i32⟩
  | .hbm, ⟨78, _⟩ => ⟨S900000x1, .i32⟩
  | .hbm, ⟨79, _⟩ => ⟨S900000, .f32⟩
  | .hbm, ⟨80, _⟩ => ⟨S_, .i32⟩
  | .hbm, ⟨81, _⟩ => ⟨S900000, .i32⟩
  | .hbm, ⟨82, _⟩ => ⟨S900000, .i1⟩
  | .hbm, ⟨83, _⟩ => ⟨S_, .i32⟩
  | .hbm, ⟨84, _⟩ => ⟨S900000, .i32⟩
  | .hbm, ⟨85, _⟩ => ⟨S900000, .i32⟩
  | .hbm, ⟨86, _⟩ => ⟨S900000, .i32⟩
  | .hbm, ⟨87, _⟩ => ⟨S900000x1, .i32⟩
  | .hbm, ⟨88, _⟩ => ⟨S900000, .f32⟩
  | .hbm, ⟨89, _⟩ => ⟨S900000, .f32⟩
  | .hbm, ⟨90, _⟩ => ⟨S_, .i32⟩
  | .hbm, ⟨91, _⟩ => ⟨S900000, .i32⟩
  | .hbm, ⟨92, _⟩ => ⟨S900000, .i1⟩
  | .hbm, ⟨93, _⟩ => ⟨S_, .i32⟩
  | .hbm, ⟨94, _⟩ => ⟨S900000, .i32⟩
  | .hbm, ⟨95, _⟩ => ⟨S900000, .i32⟩
  | .hbm, ⟨96, _⟩ => ⟨S900000, .i32⟩
  | .hbm, ⟨97, _⟩ => ⟨S900000x1, .i32⟩
  | .hbm, ⟨98, _⟩ => ⟨S900000x64, .f32⟩
  | .hbm, ⟨99, _⟩ => ⟨S900000x1, .f32⟩
  | .hbm, ⟨100, _⟩ => ⟨S900000x64, .f32⟩
  | .hbm, ⟨101, _⟩ => ⟨S900000x64, .f32⟩
  | .hbm, ⟨102, _⟩ => ⟨S_, .f32⟩
  | .hbm, ⟨103, _⟩ => ⟨S100000x64, .f32⟩
  | .hbm, ⟨104, _⟩ => ⟨S900000x1, .i32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S100000x10, .f32⟩
  | .hbm, ⟨110, _⟩ => ⟨S1x10, .f32⟩
  | .hbm, ⟨111, _⟩ => ⟨S100000x10, .f32⟩
  | .hbm, ⟨112, _⟩ => ⟨S100000x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_6 : Ref sig .tc := ⟨.hbm, 71, rfl⟩
abbrev main_v47 : Ref sig .tc := ⟨.hbm, 72, rfl⟩
abbrev main_v48 : Ref sig .tc := ⟨.hbm, 73, rfl⟩
abbrev main_c_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S100000x64_S64x10_S100000x10_1_0_0_1_n_n_wf : DotDims.WF S100000x64 S64x10 S100000x10 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.Spec.lean ====
/-
  The dense layers of the graph network, each as ONE function of whole arrays on the extended reals, index by
  index. A node matrix has 100000 rows of 64 features; a weight matrix has 64 rows.

  * `rowDot a w r j` is entry (r, j) of the product a · w: the sum over the 64 features k of a[r, k] · w[k, j].
  * `conv agg x wr b wo` is a graph-convolution layer followed by relu: entry (r, j) is
    max (agg·wr [r, j] + x·wo [r, j] + b[0, j], 0) — the aggregated neighbours through one weight, the node itself
    through another, a bias row, the positive part.
  * `lin x w` is the plain product x · w.
  * `head g b w c` is the classifier: entry (r, j) is the sum over k of (g[r, k] + b[0, k]) · w[k, j], plus c[0, j].
  * `row b` lays a vector out as a one-row matrix.
  * `net` composes them around two aggregation functions of the edge list (a neighbour sum `agg` and a
    degree-normalised neighbour sum `gcn`), which it never opens.
  The zero of the relu is kept as the value the f32 zero word denotes.
-/
import Idealize.ShloMosaic.PureOps.Ideal
import Idealize.ShloMosaic.Lib.ValueIdx

noncomputable section

open scoped BigOperators
open Idealize.ShloMosaic Idealize.ShloMosaic.ValueIdx

namespace Cert.GNN

/-- Node matrices, weight matrices, one-row matrices and vectors, by their literal extents. -/
abbrev NodeMat (n : Nat) : Type := (⟨2, ![100000, n]⟩ : Shape).Idx → EReal
abbrev WMat (n : Nat) : Type := (⟨2, ![64, n]⟩ : Shape).Idx → EReal
abbrev RowMat (n : Nat) : Type := (⟨2, ![1, n]⟩ : Shape).Idx → EReal
abbrev RowVec (n : Nat) : Type := (⟨1, ![n]⟩ : Shape).Idx → EReal

/-- Entry (r, j) of the product of a node matrix with a weight matrix. -/
def rowDot {n : Nat} (a : NodeMat 64) (w : WMat n) (r : Fin 100000) (j : Fin n) : EReal :=
  ∑ k : Fin 64, a (ix2 r k) * w (ix2 k j)

/-- A vector as a one-row matrix. -/
def row {n : Nat} (b : RowVec n) : RowMat n := fun i => b (ix1 (i 1))

/-- Entry (r, j) of a graph-convolution layer with relu. -/
def convAt (agg x : NodeMat 64) (wr : WMat 64) (b : RowMat 64) (wo : WMat 64) (r : Fin 100000) (j : Fin 64) : EReal :=
  max (rowDot agg wr r j + rowDot x wo r j + b (ix2 0 j)) (Ideal.ofBits .f32 0x00000000#32)

/-- The graph-convolution layer with relu, as a whole array. -/
def conv (agg x : NodeMat 64) (wr : WMat 64) (b : RowMat 64) (wo : WMat 64) : NodeMat 64 :=
  fun i => convAt agg x wr b wo (i 0) (i 1)

/-- The plain product of a node matrix with a weight matrix, as a whole array. -/
def lin {n : Nat} (x : NodeMat 64) (w : WMat n) : NodeMat n := fun i => rowDot x w (i 0) (i 1)

/-- Entry (r, j) of the classifier: a bias row added to the features, the product, a second bias row. -/
def headAt (g : NodeMat 64) (b : RowMat 64) (w : WMat 10) (c : RowMat 10) (r : Fin 100000) (j : Fin 10) : EReal :=
  (∑ k : Fin 64, (g (ix2 r k) + b (ix2 0 k)) * w (ix2 k j)) + c (ix2 0 j)

/-- The classifier as a whole array. -/
def head (g : NodeMat 64) (b : RowMat 64) (w : WMat 10) (c : RowMat 10) : NodeMat 10 :=
  fun i => headAt g b w c (i 0) (i 1)

/-- The whole network: two graph-convolution layers over the neighbour sum `agg`, a product, the normalised
    neighbour sum `gcn`, the classifier. The two aggregations are parameters: both programs compute them by the same
    host operations, and nothing here depends on what they are. -/
def net {E : Type} (agg gcn : NodeMat 64 → E → NodeMat 64) (x : NodeMat 64) (e : E)
    (w1r : WMat 64) (b1 : RowVec 64) (w1o : WMat 64) (w2r : WMat 64) (b2 : RowVec 64) (w2o : WMat 64)
    (w3 : WMat 64) (b3 : RowVec 64) (wl : WMat 10) (bl : RowVec 10) : NodeMat 10 :=
  head (gcn (lin (conv (agg (conv (agg x e) x w1r (row b1) w1o) e) (conv (agg x e) x w1r (row b1) w1o) w2r (row b2) w2o) w3) e)
    (row b3) wl (row bl)

end Cert.GNN

end
-- ==== Proof.HostFns.lean ====
/-
  The two aggregations over the edge list, each as one function of a node matrix and the edge array, spelt with
  the reference program's own host operations and never opened afterwards.

  * `aggOf h e`: the neighbour sum. Row d of the result is the sum, over the edges (s → d) of `e`, of row s of `h`:
    the rows of `h` gathered at the (wrapped) source indices and scatter-added into a zero matrix at the
    destination indices.
  * `gcnOf xw e`: the degree-normalised neighbour sum with self loops. The edge list is extended by one loop per
    node; each gathered row of `xw` is scaled by rsqrt(deg s) · rsqrt(deg d), the degrees counted over the
    extended list, and scatter-added at the destinations.
  Both programs compute these by the same operations on the same operands, so the certificate only needs that
  equal operands give equal results.
-/
import proofs.«120175_j56667798503738_1_alg».proof.Proof.Gen.ReferenceIdeal.Read
import proofs.«120175_j56667798503738_1_alg».proof.Proof.Spec

noncomputable section

open Idealize.ShloMosaic Idealize.ShloMosaic.TcCoe

namespace Cert.GNN

open Cert.ReferenceIdeal

/-- The edge array: two rows (sources, destinations) of 800000 node indices. -/
abbrev Edges : Type := (⟨S2x800000, .i32⟩ : BufTy).Contents (Elt Ideal)

/-- The neighbour sum of `h` over the edges `e`. -/
def aggOf (h : NodeMat 64) (e : Edges) : NodeMat 64 :=
  Host.scatterAdd (F := Ideal) (φ := .f32) scatter_S100000x64_S800000x1_S800000x64_1_0_0_1 (Read.val_main_v11 (F := Ideal)) (Read.val_main_v12 (F := Ideal) e)
    (Host.gather gather_S100000x64_S800000x1_S800000x64_1_0_n_n_0_1_164 h (Read.val_main_v9 (F := Ideal) e))

/-- The degree-normalised neighbour sum, self loops included, of `xw` over the edges `e`. -/
def gcnOf (xw : NodeMat 64) (e : Edges) : NodeMat 64 :=
  Host.scatterAdd (F := Ideal) (φ := .f32) scatter_S100000x64_S900000x1_S900000x64_1_0_0_1 (Read.val_main_v72 (F := Ideal)) (Read.val_main_v73 (F := Ideal) e)
    (mulf (F := Ideal) (φ := .f32) (Host.gather gather_S100000x64_S900000x1_S900000x64_1_0_n_n_0_1_164 xw (Read.val_main_v67 (F := Ideal) e))
      (Read.val_main_v70 (F := Ideal) e))

end Cert.GNN

end
-- ==== Proof.RefValue.lean ====
/-
  The reference program's value, as the network of the specification.

  The reference computes, one host operation at a time: the neighbour sum of the input over the edges; its product
  with a weight; a bias row; the input's product with a second weight; the positive part; the same again on the
  result; a product with a third weight; the degree-normalised neighbour sum; a bias row; the product with the
  classifier's weight; a last bias row.

  * The three aggregations are the same host operations on the same operands as the two aggregation functions
    `aggOf` and `gcnOf`; the second neighbour sum wraps the source indices by a second copy of the same
    arithmetic, which unfolds to the first copy.
  * Each product stage read at an index (r, j) is the sum over the 64 features k of a[r, k] · w[k, j].
  * In a convolution layer the reference adds the bias row before the second product, (agg·wr + b) + x·wo, where
    the specification writes agg·wr + x·wo + b. Addition on the extended reals is commutative and associative, so
    the two agree with no finiteness assumption.
  * The classifier adds its first bias row inside the sum and its second outside, exactly as the reference does.
-/
import proofs.«120175_j56667798503738_1_alg».proof.Proof.Gen.ReferenceIdeal.Read
import proofs.«120175_j56667798503738_1_alg».proof.Proof.HostFns
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.GNN

open Cert.ReferenceIdeal

set_option maxHeartbeats 400000 in
theorem v13_eq (x0 : (⟨S100000x64, .f32⟩ : BufTy).Contents (Elt Ideal)) (x1 : (⟨S2x800000, .i32⟩ : BufTy).Contents (Elt Ideal)) :
    Read.val_main_v13 (F := Ideal) x0 x1 = aggOf x0 x1 := by
  unfold Read.val_main_v13 Read.val_main_v10 aggOf
  rfl

set_option maxHeartbeats 400000 in
theorem v26_eq (x1 : (⟨S2x800000, .i32⟩ : BufTy).Contents (Elt Ideal)) :
    Read.val_main_v26 (F := Ideal) x1 = Read.val_main_v9 (F := Ideal) x1 := by
  unfold Read.val_main_v26 Read.val_main_v9 Read.val_main_v25 Read.val_main_v8 Read.val_main_v22 Read.val_main_v5
    Read.val_main_v24 Read.val_main_v7 Read.val_main_v21 Read.val_main_v4 Read.val_main_v23 Read.val_main_v6
    Read.val_main_c_1 Read.val_main_c Read.val_main_c_2 Read.val_main_c_0
  rfl

set_option maxHeartbeats 400000 in
theorem v28_eq : Read.val_main_v28 (F := Ideal) = Read.val_main_v11 (F := Ideal) := by
  unfold Read.val_main_v28 Read.val_main_v11 Read.val_main_cst_3 Read.val_main_cst
  rfl

set_option maxHeartbeats 400000 in
theorem v29_eq (x1 : (⟨S2x800000, .i32⟩ : BufTy).Contents (Elt Ideal)) :
    Read.val_main_v29 (F := Ideal) x1 = Read.val_main_v12 (F := Ideal) x1 := by
  unfold Read.val_main_v29 Read.val_main_v12
  rfl

set_option maxHeartbeats 400000 in
theorem v30_eq (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    Read.val_main_v30 (F := Ideal) x0 x1 x2 x3 x4 = aggOf (Read.val_main_v20 (F := Ideal) x0 x1 x2 x3 x4) x1 := by
  unfold Read.val_main_v30 Read.val_main_v27 aggOf
  rw [v26_eq, v28_eq, v29_eq]

set_option maxHeartbeats 400000 in
theorem v74_eq (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 x8 : (⟨S64x64, .f32⟩ : BufTy).Contents (Elt Ideal)) :
    Read.val_main_v74 (F := Ideal) x0 x1 x2 x3 x4 x5 x6 x7 x8
      = gcnOf (Read.val_main_v38 (F := Ideal) x0 x1 x2 x3 x4 x5 x6 x7 x8) x1 := by
  unfold Read.val_main_v74 Read.val_main_v71 Read.val_main_v68 gcnOf
  rfl

/-! ### The reference's index functions, as indices built from coordinates -/

theorem lidx_eq (i : (⟨2, ![100000, 64]⟩ : Shape).Idx) (k : Fin 64) :
    Read.lidx_main_v14 i k = ix2 (n0 := 100000) (n1 := 64) (i 0) k :=
  funext fun a => by match a with | ⟨0, _⟩ => rfl | ⟨1, _⟩ => rfl

theorem ridx_eq (i : (⟨2, ![100000, 64]⟩ : Shape).Idx) (k : Fin 64) :
    Read.ridx_main_v14 i k = ix2 (n0 := 64) (n1 := 64) k (i 1) :=
  funext fun a => by match a with | ⟨0, _⟩ => rfl | ⟨1, _⟩ => rfl

theorem lidx78_eq (i : (⟨2, ![100000, 10]⟩ : Shape).Idx) (k : Fin 64) :
    Read.lidx_main_v78 i k = ix2 (n0 := 100000) (n1 := 64) (i 0) k :=
  funext fun a => by match a with | ⟨0, _⟩ => rfl | ⟨1, _⟩ => rfl

theorem ridx78_eq (i : (⟨2, ![100000, 10]⟩ : Shape).Idx) (k : Fin 64) :
    Read.ridx_main_v78 i k = ix2 (n0 := 64) (n1 := 10) k (i 1) :=
  funext fun a => by match a with | ⟨0, _⟩ => rfl | ⟨1, _⟩ => rfl

theorem bias_idx_eq (i : (⟨2, ![100000, 64]⟩ : Shape).Idx) :
    Read.idx_main_v15 (Read.idx_main_v16 i) = ix1 (n := 64) (i 1) :=
  funext fun a => by match a with | ⟨0, _⟩ => rfl

theorem bias10_idx_eq (i : (⟨2, ![100000, 10]⟩ : Shape).Idx) :
    Read.idx_main_v79 (Read.idx_main_v80 i) = ix1 (n := 10) (i 1) :=
  funext fun a => by match a with | ⟨0, _⟩ => rfl

/-- A product stage of the reference read at an index is the row-by-column sum. -/
theorem dot_eq (y : NodeMat 64) (w : WMat 64) (i : (⟨2, ![100000, 64]⟩ : Shape).Idx) :
    (∑ k : Fin 64, y (Read.lidx_main_v14 i k) * w (Read.ridx_main_v14 i k)) = rowDot y w (i 0) (i 1) := by
  unfold rowDot
  refine Finset.sum_congr rfl fun k _ => ?_
  rw [lidx_eq, ridx_eq]

/-- The reference's layer: product, bias, second product, positive part; the bias moves past the second product
    because addition on the extended reals is commutative and associative. -/
theorem conv_core (agg x : NodeMat 64) (wr wo : WMat 64) (b : RowVec 64) (i : (⟨2, ![100000, 64]⟩ : Shape).Idx) :
    max ((∑ k : Fin 64, agg (Read.lidx_main_v14 i k) * wr (Read.ridx_main_v14 i k))
          + b (Read.idx_main_v15 (Read.idx_main_v16 i))
          + ∑ k : Fin 64, x (Read.lidx_main_v14 i k) * wo (Read.ridx_main_v14 i k))
        (Ideal.ofBits .f32 0x00000000#32)
      = conv agg x wr (row b) wo i := by
  rw [dot_eq, dot_eq, bias_idx_eq, add_right_comm]
  rfl

/-! ### The dense stages of the reference, as whole arrays -/

set_option maxHeartbeats 400000 in
theorem v20_eq (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    Read.val_main_v20 (F := Ideal) x0 x1 x2 x3 x4 = conv (aggOf x0 x1) x0 x2 (row x3) x4 := by
  funext i
  rw [Read.val_main_v20_apply, Read.val_main_v19_apply, Read.val_main_v17_apply, Read.val_main_v14_apply,
    Read.val_main_v18_apply, Read.val_main_v16_apply, Read.val_main_v15_apply, Read.val_main_call0_v0_apply,
    Read.val_main_call0_cst_apply, v13_eq]
  exact conv_core (aggOf x0 x1) x0 x2 x4 x3 i

set_option maxHeartbeats 400000 in
theorem v37_eq (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) :
    Read.val_main_v37 (F := Ideal) x0 x1 x2 x3 x4 x5 x6 x7
      = conv (aggOf (Read.val_main_v20 (F := Ideal) x0 x1 x2 x3 x4) x1) (Read.val_main_v20 (F := Ideal) x0 x1 x2 x3 x4)
          x5 (row x6) x7 := by
  funext i
  rw [Read.val_main_v37_apply, Read.val_main_v36_apply, Read.val_main_v34_apply, Read.val_main_v31_apply,
    Read.val_main_v35_apply, Read.val_main_v33_apply, Read.val_main_v32_apply, Read.val_main_call1_v0_apply,
    Read.val_main_call1_cst_apply, v30_eq]
  exact conv_core (aggOf (Read.val_main_v20 (F := Ideal) x0 x1 x2 x3 x4) x1) (Read.val_main_v20 (F := Ideal) x0 x1 x2 x3 x4)
    x5 x7 x6 i

set_option maxHeartbeats 400000 in
theorem v38_eq (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 x8 : (⟨S64x64, .f32⟩ : BufTy).Contents (Elt Ideal)) :
    Read.val_main_v38 (F := Ideal) x0 x1 x2 x3 x4 x5 x6 x7 x8
      = lin (Read.val_main_v37 (F := Ideal) x0 x1 x2 x3 x4 x5 x6 x7) x8 := by
  funext i
  rw [Read.val_main_v38_apply]
  exact dot_eq (Read.val_main_v37 (F := Ideal) x0 x1 x2 x3 x4 x5 x6 x7) x8 i

set_option maxHeartbeats 400000 in
theorem v81_eq (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 x8 : (⟨S64x64, .f32⟩ : BufTy).Contents (Elt Ideal))
    (x9 : (⟨S64, .f32⟩ : BufTy).Contents (Elt Ideal)) (x10 : (⟨S64x10, .f32⟩ : BufTy).Contents (Elt Ideal)) (x11 : (⟨S10, .f32⟩ : BufTy).Contents (Elt Ideal)) :
    Read.val_main_v81 (F := Ideal) x0 x1 x2 x3 x4 x5 x6 x7 x8 x9 x10 x11
      = head (Read.val_main_v74 (F := Ideal) x0 x1 x2 x3 x4 x5 x6 x7 x8) (row x9) x10 (row x11) := by
  funext i
  rw [Read.val_main_v81_apply, Read.val_main_v78_apply, Read.val_main_v80_apply, Read.val_main_v79_apply, bias10_idx_eq]
  show (∑ k : Fin 64, _) + _ = headAt _ _ _ _ (i 0) (i 1)
  unfold headAt
  refine congrArg₂ (· + ·) (Finset.sum_congr rfl fun k _ => ?_) rfl
  rw [lidx78_eq, ridx78_eq, Read.val_main_v77_apply, Read.val_main_v76_apply, Read.val_main_v75_apply]
  refine congrArg₂ (· * ·) (congrArg₂ (· + ·) rfl (congrArg x9 ?_)) rfl
  exact funext fun a => by match a with | ⟨0, _⟩ => rfl

/-- The reference program's value is the network of the specification over the two host aggregations. -/
theorem ref_eq
    (x0 : (⟨S100000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 x8 : (⟨S64x64, .f32⟩ : BufTy).Contents (Elt Ideal)) (x9 : (⟨S64, .f32⟩ : BufTy).Contents (Elt Ideal))
    (x10 : (⟨S64x10, .f32⟩ : BufTy).Contents (Elt Ideal)) (x11 : (⟨S10, .f32⟩ : BufTy).Contents (Elt Ideal)) :
    Cert.ReferenceIdeal.Read.val_main_v81 (F := Ideal) x0 x1 x2 x3 x4 x5 x6 x7 x8 x9 x10 x11
      = Cert.GNN.net Cert.GNN.aggOf Cert.GNN.gcnOf x0 x1 x2 x3 x4 x5 x6 x7 x8 x9 x10 x11 := by
  rw [v81_eq, v74_eq, v38_eq, v37_eq, v20_eq]
  rfl

end Cert.GNN

end
-- ==== Proof.KRun.lean ====
/-
  The kernel program's run with its result named. From any launch memory with zero counters, every weakly fair
  execution of the program on the TensorCores terminates without a fault, the twelve argument arrays end as
  launched, and the result array ends at the contents the last boundary of the program's fold assigns to it:
  what the fourth kernel's write-backs leave, the three kernels and three stretches of host operations before it
  having been folded from the launch memory. The run is the launch of the program's seven segments; the final
  state is read at every unscoped buffer, the result's among them.
-/
import proofs.«120175_j56667798503738_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result array ends at the last boundary's contents and every
    argument array as launched. -/
theorem run_result : θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.Hand

end
-- ==== Proof.KDots.lean ====
/-
  The kernels' matrix products read at an index. A body multiplies a block of 5000 node rows (64 features each)
  by a whole weight matrix (64 rows; 64 or 10 columns) into a zero accumulator. On the extended reals that
  product at entry (p, q) is the sum over the 64 features k of block[p, k] · weight[k, q]: the accumulator's zero
  drops out, and the contraction's one-axis index is re-indexed by its single coordinate.
-/
import proofs.«120175_j56667798503738_1_alg».proof.Proof.Gen.KernelIdeal
import Idealize.ShloMosaic.Lib.ValueIdx
import Idealize.ShloMosaic.PureOps.Ideal.Laws

noncomputable section

open scoped BigOperators
open Idealize.ShloMosaic Idealize.ShloMosaic.ValueIdx

namespace Cert.KernelIdeal.Dots

open Cert.KernelIdeal

/-! ## The 64-column product -/

theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of a block times a 64-column weight matrix, into the zero accumulator: the sum over the features. -/
theorem matmul64_apply {φ₁ φ₂ : FTy} (l : FVec Ideal S5000x64 φ₁) (r : FVec Ideal S64x64 φ₂) (p : Fin 5000) (q : Fin 64) :
    FloatOps.matmul dot_S5000x64_S64x64_S5000x64_1_0_0_1_n_n none l r (constant S5000x64 .f32 0x00000000#32) (ix2 p q)
      = ∑ k : Fin 64, l (ix2 p k) * r (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## The 10-column product -/

theorem lhs10_0 (i : S5000x10.Idx) (q : dot_S5000x64_S64x10_S5000x10_1_0_0_1_n_n.contr.Idx) :
    (dot_S5000x64_S64x10_S5000x10_1_0_0_1_n_n.lhsIdx i q 0).val = (i 0).val := by
  unfold DotDims.lhsIdx
  rw [dif_neg (show ¬(0 : Fin S5000x64.rank) ∈ dot_S5000x64_S64x10_S5000x10_1_0_0_1_n_n.lhsBatch by decide), dif_pos (show (0 : Fin S5000x64.rank) ∈ dot_S5000x64_S64x10_S5000x10_1_0_0_1_n_n.lhsNonContracting by decide)]
  rfl
theorem lhs10_1 (i : S5000x10.Idx) (q : dot_S5000x64_S64x10_S5000x10_1_0_0_1_n_n.contr.Idx) :
    (dot_S5000x64_S64x10_S5000x10_1_0_0_1_n_n.lhsIdx i q 1).val = (q ⟨0, by decide⟩).val :=
  dot_S5000x64_S64x10_S5000x10_1_0_0_1_n_n.lhsIdx_val_of_single rfl i q
theorem rhs10_0 (i : S5000x10.Idx) (q : dot_S5000x64_S64x10_S5000x10_1_0_0_1_n_n.contr.Idx) :
    (dot_S5000x64_S64x10_S5000x10_1_0_0_1_n_n.rhsIdx i q 0).val = (q ⟨0, by decide⟩).val :=
  dot_S5000x64_S64x10_S5000x10_1_0_0_1_n_n.rhsIdx_val_of_single rfl i q
theorem rhs10_1 (i : S5000x10.Idx) (q : dot_S5000x64_S64x10_S5000x10_1_0_0_1_n_n.contr.Idx) :
    (dot_S5000x64_S64x10_S5000x10_1_0_0_1_n_n.rhsIdx i q 1).val = (i 1).val := by
  unfold DotDims.rhsIdx
  rw [dif_neg (show ¬(1 : Fin S64x10.rank) ∈ dot_S5000x64_S64x10_S5000x10_1_0_0_1_n_n.rhsBatch by decide), dif_pos (show (1 : Fin S64x10.rank) ∈ dot_S5000x64_S64x10_S5000x10_1_0_0_1_n_n.rhsNonContracting by decide)]
  rfl

/-- Entry (p, q) of a block times the 10-column weight matrix, into the zero accumulator: the sum over the features. -/
theorem matmul10_apply {φ₁ φ₂ : FTy} (l : FVec Ideal S5000x64 φ₁) (r : FVec Ideal S64x10 φ₂) (p : Fin 5000) (q : Fin 10) :
    FloatOps.matmul dot_S5000x64_S64x10_S5000x10_1_0_0_1_n_n none l r (constant S5000x10 .f32 0x00000000#32) (ix2 p q)
      = ∑ k : Fin 64, l (ix2 p k) * r (ix2 k q) := by
  rw [Ideal.matmul_constant_zero_apply, ← Equiv.sum_comp (contrEquiv1 dot_S5000x64_S64x10_S5000x10_1_0_0_1_n_n 64 rfl rfl).symm]
  refine Finset.sum_congr rfl fun k _ => ?_
  have hk := contrEquiv1_symm_val dot_S5000x64_S64x10_S5000x10_1_0_0_1_n_n 64 rfl rfl k
  have el : dot_S5000x64_S64x10_S5000x10_1_0_0_1_n_n.lhsIdx (ix2 p q) ((contrEquiv1 dot_S5000x64_S64x10_S5000x10_1_0_0_1_n_n 64 rfl rfl).symm k) = ix2 p k := funext fun a => Fin.ext (by
    match a with
    | ⟨0, _⟩ => exact lhs10_0 _ _
    | ⟨1, _⟩ => exact (lhs10_1 _ _).trans hk)
  have er : dot_S5000x64_S64x10_S5000x10_1_0_0_1_n_n.rhsIdx (ix2 p q) ((contrEquiv1 dot_S5000x64_S64x10_S5000x10_1_0_0_1_n_n 64 rfl rfl).symm k) = ix2 k q := funext fun a => Fin.ext (by
    match a with
    | ⟨0, _⟩ => exact (rhs10_0 _ _).trans hk
    | ⟨1, _⟩ => exact rhs10_1 _ _)
  rw [el, er]

end Cert.KernelIdeal.Dots

end
-- ==== Proof.Layer0.lean ====
/-
  The first kernel: a graph-convolution layer with relu, twenty blocks of 5000 rows.
  Point t of the grid loads rows 5000·t … 5000·t + 4999 of the aggregated features and of the node features, the
  two whole weight matrices and the bias row, and stores, as rows 5000·t … of the result, the positive part of
  (aggregated block · first weight) + (node block · second weight) + bias row. So block t of the result is
  block t of ONE whole-array function, `conv` of the five arrays the kernel finds, and the twenty blocks cover
  the result. The kernel adds in the same order as `conv`, so each entry is read off, with no algebra.
-/
import proofs.«120175_j56667798503738_1_alg».proof.Proof.Gen.KernelIdeal.Frame
import proofs.«120175_j56667798503738_1_alg».proof.Proof.Spec
import proofs.«120175_j56667798503738_1_alg».proof.Proof.KDots
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen Cert.GNN

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the two products' sums over the features, the bias
    row's entry, the positive part. -/
theorem pay_apply (x0 x1 : Vec Ideal S5000x64 .f32) (x2 x4 : Vec Ideal S64x64 .f32) (x3 : Vec Ideal S1x64 .f32)
    (p : Fin 5000) (q : Fin 64) :
    k0_pay1 x0 x1 x2 x4 x3 (ix2 p q)
      = max ((∑ k : Fin 64, x0 (ix2 p k) * x2 (ix2 k q)) + (∑ k : Fin 64, x1 (ix2 p k) * x4 (ix2 k q))
              + x3 (ix2 (0 : Fin 1) q)) (Ideal.ofBits .f32 0x00000000#32) := by
  unfold k0_pay1
  rw [ValueIdx.maximumf_apply, ValueIdx.addf_apply, ValueIdx.addf_apply]
  refine congrArg₂ max (congrArg₂ (· + ·) (congrArg₂ (· + ·) ?_ ?_) ?_) rfl
  · refine (Dots.matmul64_apply _ _ p q).trans (Finset.sum_congr rfl fun k _ => ?_)
    show shapeCast S5000x64 x0 shapeCasts_S5000x64_S5000x64 (ix2 p k) * x2 (ix2 k q) = _
    rw [shapeCast_self]
  · exact Dots.matmul64_apply _ _ p q
  · rw [broadcastTo_1b_ab_apply, shapeCast_self]

/-- The index maps over the grid: the row blocks move with the point, the weights and the bias row stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated block at point t is rows 5000·t … of the aggregated array. -/
theorem blk0_apply (c : Dev nD) (t : Fin cfg0.N) (p : Fin 5000) (k : Fin 64) (i : S100000x64.Idx)
    (h0 : (i 0).val = 5000 * t.val + p.val) (h1 : (i 1).val = k.val) :
    (iblk0 V c 0 t : Vec Ideal S5000x64 .f32) (ix2 p k) = (V c main_v13 : S100000x64.Idx → EReal) i := by
  obtain ⟨e0, e1, -⟩ := idx_facts t
  unfold iblk0
  rw [View.read_apply]
  show V c main_v13 _ = V c main_v13 _
  refine congrArg _ (funext fun a => Fin.ext ?_)
  match a with
  | ⟨0, _⟩ => show win0_0.index t 0 * 5000 + 1 * p.val = (i 0).val; rw [e0, h0]; omega
  | ⟨1, _⟩ => show win0_0.index t 1 * 64 + 1 * k.val = (i 1).val; rw [e1, h1]; omega

/-- The node block at point t is rows 5000·t … of the node array. -/
theorem blk1_apply (c : Dev nD) (t : Fin cfg0.N) (p : Fin 5000) (k : Fin 64) (i : S100000x64.Idx)
    (h0 : (i 0).val = 5000 * t.val + p.val) (h1 : (i 1).val = k.val) :
    (iblk0 V c 1 t : Vec Ideal S5000x64 .f32) (ix2 p k) = (V c main_arg0 : S100000x64.Idx → EReal) i := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t 0 * 5000 + 1 * p.val = (i 0).val; rw [e0, h0]; omega
  | ⟨1, _⟩ => show win0_1.index t 1 * 64 + 1 * k.val = (i 1).val; rw [e1, h1]; omega

/-- The first weight block at every point is the whole weight array. -/
theorem blk2_apply (c : Dev nD) (t : Fin cfg0.N) (k : Fin 64) (q : Fin 64) :
    (iblk0 V c 2 t : Vec Ideal S64x64 .f32) (ix2 k q) = (V c main_arg2 : S64x64.Idx → EReal) (ix2 k q) := by
  obtain ⟨-, -, -, -, e0, e1, -⟩ := idx_facts t
  unfold iblk0
  rw [View.read_apply]
  show V c main_arg2 _ = V c main_arg2 _
  refine congrArg _ (funext fun a => Fin.ext ?_)
  match a with
  | ⟨0, _⟩ => show win0_2.index t 0 * 64 + 1 * k.val = k.val; rw [e0]; omega
  | ⟨1, _⟩ => show win0_2.index t 1 * 64 + 1 * q.val = q.val; rw [e1]; omega

/-- The bias block at every point is the whole bias row. -/
theorem blk3_apply (c : Dev nD) (t : Fin cfg0.N) (q : Fin 64) :
    (iblk0 V c 3 t : Vec Ideal S1x64 .f32) (ix2 (0 : Fin 1) q) = (V c main_v14 : S1x64.Idx → EReal) (ix2 (0 : Fin 1) q) := by
  obtain ⟨-, -, -, -, -, -, e0, e1, -⟩ := idx_facts t
  unfold iblk0
  rw [View.read_apply]
  show V c main_v14 _ = V c main_v14 _
  refine congrArg _ (funext fun a => Fin.ext ?_)
  match a with
  | ⟨0, _⟩ => show win0_3.index t 0 * 1 + 1 * 0 = 0; rw [e0]
  | ⟨1, _⟩ => show win0_3.index t 1 * 64 + 1 * q.val = q.val; rw [e1]; omega

/-- The second weight block at every point is the whole weight array. -/
theorem blk4_apply (c : Dev nD) (t : Fin cfg0.N) (k : Fin 64) (q : Fin 64) :
    (iblk0 V c 4 t : Vec Ideal S64x64 .f32) (ix2 k q) = (V c main_arg4 : S64x64.Idx → EReal) (ix2 k q) := by
  obtain ⟨-, -, -, -, -, -, -, -, e0, e1, -⟩ := idx_facts t
  unfold iblk0
  rw [View.read_apply]
  show V c main_arg4 _ = V c main_arg4 _
  refine congrArg _ (funext fun a => Fin.ext ?_)
  match a with
  | ⟨0, _⟩ => show win0_4.index t 0 * 64 + 1 * k.val = k.val; rw [e0]; omega
  | ⟨1, _⟩ => show win0_4.index t 1 * 64 + 1 * q.val = q.val; rw [e1]; omega

/-- What point t writes back is block t of the layer of the five arrays. -/
theorem flushed_eq (c : Dev nD) (t : Fin cfg0.N) :
    (dat0 (F := Ideal) V c).flushed 5 t
      = ((cfg0.win 5).blk t).view.read (Elt Ideal)
          (conv (V c main_v13) (V c main_arg0) (V c main_arg2) (V c main_v14) (V c main_arg4)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e4, e5⟩ := idx_facts t
  refine funext fun (j : S5000x64.Idx) => ?_
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (iblk0 V c 4 t) (iblk0 V c 3 t) (ix2 p q)
    = conv (V c main_v13) (V c main_arg0) (V c main_arg2) (V c main_v14) (V c main_arg4)
        (((cfg0.win 5).blk t).view.emb (ix2 p q))
  refine (pay_apply _ _ _ _ _ p q).trans ?_
  have hr : ((((cfg0.win 5).blk t).view.emb (ix2 p q)) 0).val = 5000 * t.val + p.val := by
    show win0_5.index t 0 * 5000 + 1 * p.val = _; rw [e4]; omega
  have hc : ((((cfg0.win 5).blk t).view.emb (ix2 p q)) 1).val = q.val := by
    show win0_5.index t 1 * 64 + 1 * q.val = _; rw [e5]; omega
  generalize ((cfg0.win 5).blk t).view.emb (ix2 p q) = E at hr hc
  unfold conv convAt rowDot
  refine congrArg₂ max (congrArg₂ (· + ·) (congrArg₂ (· + ·) (Finset.sum_congr rfl fun k _ => ?_)
    (Finset.sum_congr rfl fun k _ => ?_)) ?_) rfl
  · rw [blk0_apply V c t p k (ix2 (E 0) k) hr rfl, blk2_apply V c t k q]
    refine congrArg _ (congrArg _ (funext fun a => Fin.ext ?_))
    match a with
    | ⟨0, _⟩ => rfl
    | ⟨1, _⟩ => exact hc.symm
  · rw [blk1_apply V c t p k (ix2 (E 0) k) hr rfl, blk4_apply V c t k q]
    refine congrArg _ (congrArg _ (funext fun a => Fin.ext ?_))
    match a with
    | ⟨0, _⟩ => rfl
    | ⟨1, _⟩ => exact hc.symm
  · rw [blk3_apply V c t q]
    refine congrArg _ (funext fun a => Fin.ext ?_)
    match a with
    | ⟨0, _⟩ => rfl
    | ⟨1, _⟩ => exact hc.symm

/-- An index of the result array lies in point t's block iff each coordinate lies in the block's range. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v15).slice (win0_5.rect t)).set ↔ _
  rw [View.set_slice_whole, Rect.mem_set_unit]
  exact Iff.rfl

/-- The result array after the twenty points: row r lies in the block of point r / 5000, so the blocks cover the
    array and it ends at the layer of the five arrays the kernel found. -/
theorem final (c : Dev nD) :
    (dat0 (F := Ideal) V c).arrAt 5 cfg0.N
      = conv (V c main_v13) (V c main_arg0) (V c main_arg2) (V c main_v14) (V c main_arg4) :=
  (dat0 (F := Ideal) V c).arrAt_eq_of_cover 5 (conv (V c main_v13) (V c main_arg0) (V c main_arg2) (V c main_v14) (V c main_arg4))
    (fun t _ => flushed_eq V c t) fun i => by
    have hi0 : (i 0).val < 100000 := (i 0).isLt
    have hi1 : (i 1).val < 64 := (i 1).isLt
    have hN : cfg0.N = 20 := N_0
    have ht : (i 0).val / 5000 < cfg0.N := by rw [hN]; omega
    obtain ⟨-, -, -, -, -, -, -, -, -, -, e4, e5⟩ := idx_facts ⟨(i 0).val / 5000, ht⟩
    refine ⟨⟨(i 0).val / 5000, ht⟩, flush0_5 _, ?_⟩
    rw [mem_blk]
    intro a
    match a with
    | ⟨0, _⟩ =>
      show win0_5.index ⟨(i 0).val / 5000, ht⟩ 0 * 5000 ≤ (i 0).val ∧ (i 0).val < win0_5.index ⟨(i 0).val / 5000, ht⟩ 0 * 5000 + 5000
      rw [e4]; show (i 0).val / 5000 * 5000 ≤ (i 0).val ∧ (i 0).val < (i 0).val / 5000 * 5000 + 5000; omega
    | ⟨1, _⟩ =>
      show win0_5.index ⟨(i 0).val / 5000, ht⟩ 1 * 64 ≤ (i 1).val ∧ (i 1).val < win0_5.index ⟨(i 0).val / 5000, ht⟩ 1 * 64 + 64
      rw [e5]; omega

end Cert.KernelIdeal.Layer0

end
-- ==== Proof.Layer1.lean ====
/-
  The second kernel: a graph-convolution layer with relu, twenty blocks of 5000 rows.
  Point t of the grid loads rows 5000·t … 5000·t + 4999 of the aggregated features and of the node features, the
  two whole weight matrices and the bias row, and stores, as rows 5000·t … of the result, the positive part of
  (aggregated block · first weight) + (node block · second weight) + bias row. So block t of the result is
  block t of ONE whole-array function, `conv` of the five arrays the kernel finds, and the twenty blocks cover
  the result. The kernel adds in the same order as `conv`, so each entry is read off, with no algebra.
-/
import proofs.«120175_j56667798503738_1_alg».proof.Proof.Gen.KernelIdeal.Frame
import proofs.«120175_j56667798503738_1_alg».proof.Proof.Spec
import proofs.«120175_j56667798503738_1_alg».proof.Proof.KDots
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen Cert.GNN

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the two products' sums over the features, the bias
    row's entry, the positive part. -/
theorem pay_apply (x0 x1 : Vec Ideal S5000x64 .f32) (x2 x4 : Vec Ideal S64x64 .f32) (x3 : Vec Ideal S1x64 .f32)
    (p : Fin 5000) (q : Fin 64) :
    k1_pay1 x0 x1 x2 x4 x3 (ix2 p q)
      = max ((∑ k : Fin 64, x0 (ix2 p k) * x2 (ix2 k q)) + (∑ k : Fin 64, x1 (ix2 p k) * x4 (ix2 k q))
              + x3 (ix2 (0 : Fin 1) q)) (Ideal.ofBits .f32 0x00000000#32) := by
  unfold k1_pay1
  rw [ValueIdx.maximumf_apply, ValueIdx.addf_apply, ValueIdx.addf_apply]
  refine congrArg₂ max (congrArg₂ (· + ·) (congrArg₂ (· + ·) ?_ ?_) ?_) rfl
  · refine (Dots.matmul64_apply _ _ p q).trans (Finset.sum_congr rfl fun k _ => ?_)
    show shapeCast S5000x64 x0 shapeCasts_S5000x64_S5000x64 (ix2 p k) * x2 (ix2 k q) = _
    rw [shapeCast_self]
  · refine (Dots.matmul64_apply _ _ p q).trans (Finset.sum_congr rfl fun k _ => ?_)
    show shapeCast S5000x64 x1 shapeCasts_S5000x64_S5000x64 (ix2 p k) * x4 (ix2 k q) = _
    rw [shapeCast_self]
  · rw [broadcastTo_1b_ab_apply, shapeCast_self]

/-- The index maps over the grid: the row blocks move with the point, the weights and the bias row stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated block at point t is rows 5000·t … of the aggregated array. -/
theorem blk0_apply (c : Dev nD) (t : Fin cfg1.N) (p : Fin 5000) (k : Fin 64) (i : S100000x64.Idx)
    (h0 : (i 0).val = 5000 * t.val + p.val) (h1 : (i 1).val = k.val) :
    (iblk1 V c 0 t : Vec Ideal S5000x64 .f32) (ix2 p k) = (V c main_v25 : S100000x64.Idx → EReal) i := by
  obtain ⟨e0, e1, -⟩ := idx_facts t
  unfold iblk1
  rw [View.read_apply]
  show V c main_v25 _ = V c main_v25 _
  refine congrArg _ (funext fun a => Fin.ext ?_)
  match a with
  | ⟨0, _⟩ => show win1_0.index t 0 * 5000 + 1 * p.val = (i 0).val; rw [e0, h0]; omega
  | ⟨1, _⟩ => show win1_0.index t 1 * 64 + 1 * k.val = (i 1).val; rw [e1, h1]; omega

/-- The node block at point t is rows 5000·t … of the node array. -/
theorem blk1_apply (c : Dev nD) (t : Fin cfg1.N) (p : Fin 5000) (k : Fin 64) (i : S100000x64.Idx)
    (h0 : (i 0).val = 5000 * t.val + p.val) (h1 : (i 1).val = k.val) :
    (iblk1 V c 1 t : Vec Ideal S5000x64 .f32) (ix2 p k) = (V c main_v15 : S100000x64.Idx → EReal) i := by
  obtain ⟨-, -, e0, e1, -⟩ := idx_facts t
  unfold iblk1
  rw [View.read_apply]
  show V c main_v15 _ = V c main_v15 _
  refine congrArg _ (funext fun a => Fin.ext ?_)
  match a with
  | ⟨0, _⟩ => show win1_1.index t 0 * 5000 + 1 * p.val = (i 0).val; rw [e0, h0]; omega
  | ⟨1, _⟩ => show win1_1.index t 1 * 64 + 1 * k.val = (i 1).val; rw [e1, h1]; omega

/-- The first weight block at every point is the whole weight array. -/
theorem blk2_apply (c : Dev nD) (t : Fin cfg1.N) (k : Fin 64) (q : Fin 64) :
    (iblk1 V c 2 t : Vec Ideal S64x64 .f32) (ix2 k q) = (V c main_arg5 : S64x64.Idx → EReal) (ix2 k q) := by
  obtain ⟨-, -, -, -, e0, e1, -⟩ := idx_facts t
  unfold iblk1
  rw [View.read_apply]
  show V c main_arg5 _ = V c main_arg5 _
  refine congrArg _ (funext fun a => Fin.ext ?_)
  match a with
  | ⟨0, _⟩ => show win1_2.index t 0 * 64 + 1 * k.val = k.val; rw [e0]; omega
  | ⟨1, _⟩ => show win1_2.index t 1 * 64 + 1 * q.val = q.val; rw [e1]; omega

/-- The bias block at every point is the whole bias row. -/
theorem blk3_apply (c : Dev nD) (t : Fin cfg1.N) (q : Fin 64) :
    (iblk1 V c 3 t : Vec Ideal S1x64 .f32) (ix2 (0 : Fin 1) q) = (V c main_v26 : S1x64.Idx → EReal) (ix2 (0 : Fin 1) q) := by
  obtain ⟨-, -, -, -, -, -, e0, e1, -⟩ := idx_facts t
  unfold iblk1
  rw [View.read_apply]
  show V c main_v26 _ = V c main_v26 _
  refine congrArg _ (funext fun a => Fin.ext ?_)
  match a with
  | ⟨0, _⟩ => show win1_3.index t 0 * 1 + 1 * 0 = 0; rw [e0]
  | ⟨1, _⟩ => show win1_3.index t 1 * 64 + 1 * q.val = q.val; rw [e1]; omega

/-- The second weight block at every point is the whole weight array. -/
theorem blk4_apply (c : Dev nD) (t : Fin cfg1.N) (k : Fin 64) (q : Fin 64) :
    (iblk1 V c 4 t : Vec Ideal S64x64 .f32) (ix2 k q) = (V c main_arg7 : S64x64.Idx → EReal) (ix2 k q) := by
  obtain ⟨-, -, -, -, -, -, -, -, e0, e1, -⟩ := idx_facts t
  unfold iblk1
  rw [View.read_apply]
  show V c main_arg7 _ = V c main_arg7 _
  refine congrArg _ (funext fun a => Fin.ext ?_)
  match a with
  | ⟨0, _⟩ => show win1_4.index t 0 * 64 + 1 * k.val = k.val; rw [e0]; omega
  | ⟨1, _⟩ => show win1_4.index t 1 * 64 + 1 * q.val = q.val; rw [e1]; omega

/-- What point t writes back is block t of the layer of the five arrays. -/
theorem flushed_eq (c : Dev nD) (t : Fin cfg1.N) :
    (dat1 (F := Ideal) V c).flushed 5 t
      = ((cfg1.win 5).blk t).view.read (Elt Ideal)
          (conv (V c main_v25) (V c main_v15) (V c main_arg5) (V c main_v26) (V c main_arg7)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e4, e5⟩ := idx_facts t
  refine funext fun (j : S5000x64.Idx) => ?_
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 4 t) (iblk1 V c 3 t) (ix2 p q)
    = conv (V c main_v25) (V c main_v15) (V c main_arg5) (V c main_v26) (V c main_arg7)
        (((cfg1.win 5).blk t).view.emb (ix2 p q))
  refine (pay_apply _ _ _ _ _ p q).trans ?_
  have hr : ((((cfg1.win 5).blk t).view.emb (ix2 p q)) 0).val = 5000 * t.val + p.val := by
    show win1_5.index t 0 * 5000 + 1 * p.val = _; rw [e4]; omega
  have hc : ((((cfg1.win 5).blk t).view.emb (ix2 p q)) 1).val = q.val := by
    show win1_5.index t 1 * 64 + 1 * q.val = _; rw [e5]; omega
  generalize ((cfg1.win 5).blk t).view.emb (ix2 p q) = E at hr hc
  unfold conv convAt rowDot
  refine congrArg₂ max (congrArg₂ (· + ·) (congrArg₂ (· + ·) (Finset.sum_congr rfl fun k _ => ?_)
    (Finset.sum_congr rfl fun k _ => ?_)) ?_) rfl
  · rw [blk0_apply V c t p k (ix2 (E 0) k) hr rfl, blk2_apply V c t k q]
    refine congrArg _ (congrArg _ (funext fun a => Fin.ext ?_))
    match a with
    | ⟨0, _⟩ => rfl
    | ⟨1, _⟩ => exact hc.symm
  · rw [blk1_apply V c t p k (ix2 (E 0) k) hr rfl, blk4_apply V c t k q]
    refine congrArg _ (congrArg _ (funext fun a => Fin.ext ?_))
    match a with
    | ⟨0, _⟩ => rfl
    | ⟨1, _⟩ => exact hc.symm
  · rw [blk3_apply V c t q]
    refine congrArg _ (funext fun a => Fin.ext ?_)
    match a with
    | ⟨0, _⟩ => rfl
    | ⟨1, _⟩ => exact hc.symm

/-- An index of the result array lies in point t's block iff each coordinate lies in the block's range. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v27).slice (win1_5.rect t)).set ↔ _
  rw [View.set_slice_whole, Rect.mem_set_unit]
  exact Iff.rfl

/-- The result array after the twenty points: row r lies in the block of point r / 5000, so the blocks cover the
    array and it ends at the layer of the five arrays the kernel found. -/
theorem final (c : Dev nD) :
    (dat1 (F := Ideal) V c).arrAt 5 cfg1.N
      = conv (V c main_v25) (V c main_v15) (V c main_arg5) (V c main_v26) (V c main_arg7) :=
  (dat1 (F := Ideal) V c).arrAt_eq_of_cover 5 (conv (V c main_v25) (V c main_v15) (V c main_arg5) (V c main_v26) (V c main_arg7))
    (fun t _ => flushed_eq V c t) fun i => by
    have hi0 : (i 0).val < 100000 := (i 0).isLt
    have hi1 : (i 1).val < 64 := (i 1).isLt
    have hN : cfg1.N = 20 := N_1
    have ht : (i 0).val / 5000 < cfg1.N := by rw [hN]; omega
    obtain ⟨-, -, -, -, -, -, -, -, -, -, e4, e5⟩ := idx_facts ⟨(i 0).val / 5000, ht⟩
    refine ⟨⟨(i 0).val / 5000, ht⟩, flush1_5 _, ?_⟩
    rw [mem_blk]
    intro a
    match a with
    | ⟨0, _⟩ =>
      show win1_5.index ⟨(i 0).val / 5000, ht⟩ 0 * 5000 ≤ (i 0).val ∧ (i 0).val < win1_5.index ⟨(i 0).val / 5000, ht⟩ 0 * 5000 + 5000
      rw [e4]; show (i 0).val / 5000 * 5000 ≤ (i 0).val ∧ (i 0).val < (i 0).val / 5000 * 5000 + 5000; omega
    | ⟨1, _⟩ =>
      show win1_5.index ⟨(i 0).val / 5000, ht⟩ 1 * 64 ≤ (i 1).val ∧ (i 1).val < win1_5.index ⟨(i 0).val / 5000, ht⟩ 1 * 64 + 64
      rw [e5]; omega

end Cert.KernelIdeal.Layer1

end
-- ==== Proof.Layer2.lean ====
/-
  The third kernel: the plain product of the node features with a weight matrix, twenty blocks of 5000 rows.
  Point t of the grid loads rows 5000·t … 5000·t + 4999 of the features and the whole weight matrix, and stores
  their product as rows 5000·t … of the result. So block t of the result is block t of ONE whole-array function,
  `lin` of the two arrays the kernel finds, and the twenty blocks cover the result.
-/
import proofs.«120175_j56667798503738_1_alg».proof.Proof.Gen.KernelIdeal.Frame
import proofs.«120175_j56667798503738_1_alg».proof.Proof.Spec
import proofs.«120175_j56667798503738_1_alg».proof.Proof.KDots
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.GNN

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the product's sum over the features. -/
theorem pay_apply (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  refine (Dots.matmul64_apply _ _ p q).trans (Finset.sum_congr rfl fun k _ => ?_)
  show shapeCast S5000x64 x0 shapeCasts_S5000x64_S5000x64 (ix2 p k) * x1 (ix2 k q) = _
  rw [shapeCast_self]

/-- The index maps over the grid: the row blocks move with the point, the weight matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point t is rows 5000·t … of the feature array. -/
theorem blk0_apply (c : Dev nD) (t : Fin cfg2.N) (p : Fin 5000) (k : Fin 64) (i : S100000x64.Idx)
    (h0 : (i 0).val = 5000 * t.val + p.val) (h1 : (i 1).val = k.val) :
    (iblk2 V c 0 t : Vec Ideal S5000x64 .f32) (ix2 p k) = (V c main_v27 : S100000x64.Idx → EReal) i := by
  obtain ⟨e0, e1, -⟩ := idx_facts t
  unfold iblk2
  rw [View.read_apply]
  show V c main_v27 _ = V c main_v27 _
  refine congrArg _ (funext fun a => Fin.ext ?_)
  match a with
  | ⟨0, _⟩ => show win2_0.index t 0 * 5000 + 1 * p.val = (i 0).val; rw [e0, h0]; omega
  | ⟨1, _⟩ => show win2_0.index t 1 * 64 + 1 * k.val = (i 1).val; rw [e1, h1]; omega

/-- The weight block at every point is the whole weight array. -/
theorem blk1_apply (c : Dev nD) (t : Fin cfg2.N) (k : Fin 64) (q : Fin 64) :
    (iblk2 V c 1 t : Vec Ideal S64x64 .f32) (ix2 k q) = (V c main_arg8 : S64x64.Idx → EReal) (ix2 k q) := by
  obtain ⟨-, -, e2, e3, -⟩ := idx_facts t
  unfold iblk2
  rw [View.read_apply]
  show V c main_arg8 _ = V c main_arg8 _
  refine congrArg _ (funext fun a => Fin.ext ?_)
  match a with
  | ⟨0, _⟩ => show win2_1.index t 0 * 64 + 1 * k.val = k.val; rw [e2]; omega
  | ⟨1, _⟩ => show win2_1.index t 1 * 64 + 1 * q.val = q.val; rw [e3]; omega

/-- What point t writes back is block t of `lin` of the two arrays. -/
theorem flushed_eq (c : Dev nD) (t : Fin cfg2.N) :
    (dat2 (F := Ideal) V c).flushed 2 t
      = ((cfg2.win 2).blk t).view.read (Elt Ideal) (lin (V c main_v27) (V c main_arg8)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  refine funext fun (j : S5000x64.Idx) => ?_
  obtain ⟨p, q, rfl⟩ : ∃ (p : Fin 5000) (q : Fin 64), j = ix2 p q := ⟨j 0, j 1, eq_ix2 j⟩
  show k2_pay1 (iblk2 V c 0 t) (iblk2 V c 1 t) (ix2 p q)
    = lin (V c main_v27) (V c main_arg8) (((cfg2.win 2).blk t).view.emb (ix2 p q))
  refine (pay_apply _ _ p q).trans ?_
  unfold lin rowDot
  refine Finset.sum_congr rfl fun k _ => ?_
  have hr : ((((cfg2.win 2).blk t).view.emb (ix2 p q)) 0).val = 5000 * t.val + p.val := by
    show win2_2.index t 0 * 5000 + 1 * p.val = _; rw [e4]; omega
  have hc : ((((cfg2.win 2).blk t).view.emb (ix2 p q)) 1).val = q.val := by
    show win2_2.index t 1 * 64 + 1 * q.val = _; rw [e5]; omega
  rw [blk0_apply V c t p k (ix2 ((((cfg2.win 2).blk t).view.emb (ix2 p q)) 0) k) hr rfl, blk1_apply V c t k q]
  refine congrArg _ (congrArg _ (funext fun a => Fin.ext ?_))
  match a with
  | ⟨0, _⟩ => rfl
  | ⟨1, _⟩ => exact hc.symm

/-- An index of the result array lies in point t's block iff each coordinate lies in the block's range. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v28).slice (win2_2.rect t)).set ↔ _
  rw [View.set_slice_whole, Rect.mem_set_unit]
  exact Iff.rfl

/-- The result array after the twenty points: row r lies in the block of point r / 5000, so the blocks cover the
    array and it ends at `lin` of the two arrays the kernel found. -/
theorem final (c : Dev nD) :
    (dat2 (F := Ideal) V c).arrAt 2 cfg2.N = lin (V c main_v27) (V c main_arg8) :=
  (dat2 (F := Ideal) V c).arrAt_eq_of_cover 2 (lin (V c main_v27) (V c main_arg8)) (fun t _ => flushed_eq V c t) fun i => by
    have hi0 : (i 0).val < 100000 := (i 0).isLt
    have hi1 : (i 1).val < 64 := (i 1).isLt
    have hN : cfg2.N = 20 := N_2
    have ht : (i 0).val / 5000 < cfg2.N := by rw [hN]; omega
    obtain ⟨-, -, -, -, e4, e5⟩ := idx_facts ⟨(i 0).val / 5000, ht⟩
    refine ⟨⟨(i 0).val / 5000, ht⟩, flush2_2 _, ?_⟩
    rw [mem_blk]
    intro a
    match a with
    | ⟨0, _⟩ =>
      show win2_2.index ⟨(i 0).val / 5000, ht⟩ 0 * 5000 ≤ (i 0).val ∧ (i 0).val < win2_2.index ⟨(i 0).val / 5000, ht⟩ 0 * 5000 + 5000
      rw [e4]; show (i 0).val / 5000 * 5000 ≤ (i 0).val ∧ (i 0).val < (i 0).val / 5000 * 5000 + 5000; omega
    | ⟨1, _⟩ =>
      show win2_2.index ⟨(i 0).val / 5000, ht⟩ 1 * 64 ≤ (i 1).val ∧ (i 1).val < win2_2.index ⟨(i 0).val / 5000, ht⟩ 1 * 64 + 64
      rw [e5]; omega

end Cert.KernelIdeal.Layer2

end
-- ==== Proof.Layer3.lean ====
/-
  The fourth kernel: the classifier, twenty blocks of 5000 rows. Point t loads rows 5000·t … 5000·t + 4999 of the
  aggregated features, the bias row, the whole 64 × 10 weight matrix and the second bias row; it adds the first
  bias row to every loaded row, multiplies by the weight matrix into a zero accumulator and adds the second bias
  row. So block t of the result is block t of ONE whole-array function, `head` of the four arrays the kernel
  finds, and the twenty blocks cover the result.
-/
import proofs.«120175_j56667798503738_1_alg».proof.Proof.Gen.KernelIdeal.Frame
import proofs.«120175_j56667798503738_1_alg».proof.Proof.Spec
import proofs.«120175_j56667798503738_1_alg».proof.Proof.KDots
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen Cert.GNN

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q) of its block: the biased rows against the weight matrix, plus the
    second bias. -/
theorem pay_apply (x0 : Vec Ideal S5000x64 .f32) (x1 : Vec Ideal S1x64 .f32) (x2 : Vec Ideal S64x10 .f32)
    (x3 : Vec Ideal S1x10 .f32) (p : Fin 5000) (q : Fin 10) :
    k3_pay1 x0 x1 x2 x3 (ix2 p q)
      = (∑ k : Fin 64, (x0 (ix2 p k) + x1 (ix2 0 k)) * x2 (ix2 k q)) + x3 (ix2 0 q) := by
  unfold k3_pay1
  show FloatOps.matmul (F := Ideal) (φ₁ := .bf16) (φ₂ := .bf16) dot_S5000x64_S64x10_S5000x10_1_0_0_1_n_n none _ _ (constant S5000x10 .f32 0x00000000#32) (ix2 p q)
      + broadcastTo S5000x10 (shapeCast S1x10 x3 shapeCasts_S1x10_S1x10) broadcasts_S1x10_S5000x10 (ix2 p q) = _
  rw [Dots.matmul10_apply, broadcastTo_1b_ab_apply, shapeCast_self x3]
  refine congrArg (fun z : EReal => z + x3 (ix2 0 q)) (Finset.sum_congr rfl fun k _ => ?_)
  show (shapeCast S5000x64 x0 shapeCasts_S5000x64_S5000x64 (ix2 p k)
      + broadcastTo S5000x64 (shapeCast S1x64 x1 shapeCasts_S1x64_S1x64) broadcasts_S1x64_S5000x64 (ix2 p k)) * x2 (ix2 k q) = _
  rw [shapeCast_self x0, shapeCast_self x1, broadcastTo_1b_ab_apply]

/-- The index maps over the grid: the row blocks move with the point; the bias rows and the weight matrix stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The feature block at point t is rows 5000·t … of the aggregated features. -/
theorem blk0_apply (c : Dev nD) (t : Fin cfg3.N) (p : Fin 5000) (k : Fin 64) (i : S100000x64.Idx)
    (h0 : (i 0).val = 5000 * t.val + p.val) (h1 : (i 1).val = k.val) :
    (iblk3 V c 0 t : Vec Ideal S5000x64 .f32) (ix2 p k) = (V c main_v64 : S100000x64.Idx → EReal) i := by
  obtain ⟨e0, e1, -⟩ := idx_facts t
  unfold iblk3
  rw [View.read_apply]
  show V c main_v64 _ = V c main_v64 _
  refine congrArg _ (funext fun a => Fin.ext ?_)
  match a with
  | ⟨0, _⟩ => show win3_0.index t 0 * 5000 + 1 * p.val = (i 0).val; rw [e0, h0]; omega
  | ⟨1, _⟩ => show win3_0.index t 1 * 64 + 1 * k.val = (i 1).val; rw [e1, h1]; omega

/-- The first bias block at every point is the whole one-row array. -/
theorem blk1_apply (c : Dev nD) (t : Fin cfg3.N) (k : Fin 64) :
    (iblk3 V c 1 t : Vec Ideal S1x64 .f32) (ix2 0 k) = (V c main_v65 : S1x64.Idx → EReal) (ix2 0 k) := by
  obtain ⟨-, -, e2, e3, -⟩ := idx_facts t
  unfold iblk3
  rw [View.read_apply]
  show V c main_v65 _ = V c main_v65 _
  refine congrArg _ (funext fun a => Fin.ext ?_)
  match a with
  | ⟨0, _⟩ => show win3_1.index t 0 * 1 + 1 * 0 = 0; rw [e2]
  | ⟨1, _⟩ => show win3_1.index t 1 * 64 + 1 * k.val = k.val; rw [e3]; omega

/-- The weight block at every point is the whole weight array. -/
theorem blk2_apply (c : Dev nD) (t : Fin cfg3.N) (k : Fin 64) (q : Fin 10) :
    (iblk3 V c 2 t : Vec Ideal S64x10 .f32) (ix2 k q) = (V c main_arg10 : S64x10.Idx → EReal) (ix2 k q) := by
  obtain ⟨-, -, -, -, e4, e5, -⟩ := idx_facts t
  unfold iblk3
  rw [View.read_apply]
  show V c main_arg10 _ = V c main_arg10 _
  refine congrArg _ (funext fun a => Fin.ext ?_)
  match a with
  | ⟨0, _⟩ => show win3_2.index t 0 * 64 + 1 * k.val = k.val; rw [e4]; omega
  | ⟨1, _⟩ => show win3_2.index t 1 * 10 + 1 * q.val = q.val; rw [e5]; omega

/-- The second bias block at every point is the whole one-row array. -/
theorem blk3_apply (c : Dev nD) (t : Fin cfg3.N) (q : Fin 10) :
    (iblk3 V c 3 t : Vec Ideal S1x10 .f32) (ix2 0 q) = (V c main_v66 : S1x10.Idx → EReal) (ix2 0 q) := by
  obtain ⟨-, -, -, -, -, -, e6, e7, -⟩ := idx_facts t
  unfold iblk3
  rw [View.read_apply]
  show V c main_v66 _ = V c main_v66 _
  refine congrArg _ (funext fun a => Fin.ext ?_)
  match a with
  | ⟨0, _⟩ => show win3_3.index t 0 * 1 + 1 * 0 = 0; rw [e6]
  | ⟨1, _⟩ => show win3_3.index t 1 * 10 + 1 * q.val = q.val; rw [e7]; omega

/-- What point t writes back is block t of `head` of the four arrays. -/
theorem flushed_eq (c : Dev nD) (t : Fin cfg3.N) :
    (dat3 (F := Ideal) V c).flushed 4 t
      = ((cfg3.win 4).blk t).view.read (Elt Ideal) (head (V c main_v64) (V c main_v65) (V c main_arg10) (V c main_v66)) := by
  show (cfg3.win 4).cut (grid3.coords t) ((dat3 V c).after 4 t) = _
  rw [after3_4]
  unfold out3_4
  rw [View.canon_unit_zero hz]
  simp only [View.ld_unit_zero (S := S5000x64) hz, View.ld_unit_zero (S := S1x64) hz, View.ld_unit_zero (S := S64x10) hz,
    View.ld_unit_zero (S := S1x10) hz]
  obtain ⟨-, -, -, -, -, -, -, -, e8, e9⟩ := idx_facts t
  refine funext fun (j : S5000x10.Idx) => ?_
  obtain ⟨p, q, rfl⟩ : ∃ (p : Fin 5000) (q : Fin 10), j = ix2 p q := ⟨j 0, j 1, eq_ix2 j⟩
  show k3_pay1 (iblk3 V c 0 t) (iblk3 V c 1 t) (iblk3 V c 2 t) (iblk3 V c 3 t) (ix2 p q)
    = head (V c main_v64) (V c main_v65) (V c main_arg10) (V c main_v66) (((cfg3.win 4).blk t).view.emb (ix2 p q))
  refine (pay_apply _ _ _ _ p q).trans ?_
  unfold head headAt
  have hr : ((((cfg3.win 4).blk t).view.emb (ix2 p q)) 0).val = 5000 * t.val + p.val := by
    show win3_4.index t 0 * 5000 + 1 * p.val = _; rw [e8]; omega
  have hc : ((((cfg3.win 4).blk t).view.emb (ix2 p q)) 1).val = q.val := by
    show win3_4.index t 1 * 10 + 1 * q.val = _; rw [e9]; omega
  have hq : (((cfg3.win 4).blk t).view.emb (ix2 p q)) 1 = q := Fin.ext hc
  rw [blk3_apply V c t q]
  refine congrArg₂ (· + ·) (Finset.sum_congr rfl fun k _ => ?_) ?_
  · rw [blk0_apply V c t p k (ix2 ((((cfg3.win 4).blk t).view.emb (ix2 p q)) 0) k) hr rfl, blk1_apply V c t k, blk2_apply V c t k q]
    refine congrArg _ (congrArg _ (funext fun a => Fin.ext ?_))
    match a with
    | ⟨0, _⟩ => rfl
    | ⟨1, _⟩ => exact hc.symm
  · refine congrArg _ (funext fun a => Fin.ext ?_)
    match a with
    | ⟨0, _⟩ => rfl
    | ⟨1, _⟩ => exact hc.symm

/-- An index of the result array lies in point t's block iff each coordinate lies in the block's range. -/
theorem mem_blk (t : Fin cfg3.N) (i : S100000x10.Idx) :
    i ∈ ((cfg3.win 4).blk t).view.set ↔ ∀ a : Fin 2, win3_4.index t a * S5000x10.size a ≤ (i a).val
      ∧ (i a).val < win3_4.index t a * S5000x10.size a + S5000x10.size a := by
  show i ∈ ((View.whole main_v67).slice (win3_4.rect t)).set ↔ _
  rw [View.set_slice_whole, Rect.mem_set_unit]
  exact Iff.rfl

/-- The result array after the twenty points: row r lies in the block of point r / 5000, so the blocks cover the
    array and it ends at `head` of the four arrays the kernel found. -/
theorem final (c : Dev nD) :
    (dat3 (F := Ideal) V c).arrAt 4 cfg3.N
      = head (V c main_v64) (V c main_v65) (V c main_arg10) (V c main_v66) :=
  (dat3 (F := Ideal) V c).arrAt_eq_of_cover 4 (head (V c main_v64) (V c main_v65) (V c main_arg10) (V c main_v66))
    (fun t _ => flushed_eq V c t) fun i => by
    have hi0 : (i 0).val < 100000 := (i 0).isLt
    have hi1 : (i 1).val < 10 := (i 1).isLt
    have hN : cfg3.N = 20 := N_3
    have ht : (i 0).val / 5000 < cfg3.N := by rw [hN]; omega
    obtain ⟨-, -, -, -, -, -, -, -, e8, e9⟩ := idx_facts ⟨(i 0).val / 5000, ht⟩
    refine ⟨⟨(i 0).val / 5000, ht⟩, flush3_4 _, ?_⟩
    rw [mem_blk]
    intro a
    match a with
    | ⟨0, _⟩ =>
      show win3_4.index ⟨(i 0).val / 5000, ht⟩ 0 * 5000 ≤ (i 0).val ∧ (i 0).val < win3_4.index ⟨(i 0).val / 5000, ht⟩ 0 * 5000 + 5000
      rw [e8]; show (i 0).val / 5000 * 5000 ≤ (i 0).val ∧ (i 0).val < (i 0).val / 5000 * 5000 + 5000; omega
    | ⟨1, _⟩ =>
      show win3_4.index ⟨(i 0).val / 5000, ht⟩ 1 * 10 ≤ (i 1).val ∧ (i 1).val < win3_4.index ⟨(i 0).val / 5000, ht⟩ 1 * 10 + 10
      rw [e9]; omega

end Cert.KernelIdeal.Layer3

end
-- ==== Proof.KWalk.lean ====
/-
  What the kernel program's run leaves in its result buffer, as the specification's function of the launch memory.

  The program is seven segments: a stretch of host operations, a region (the first graph-convolution layer), a second
  stretch, two regions (the second graph-convolution layer, the third layer's product), a third stretch, and a last
  region (the classifier). The buffer contents at the boundaries are a fold from the launch memory: a stretch's fold
  of its operations, a region's arrays at what its write-backs leave and every other buffer untouched.

  * The stretches compute, from what they find, the neighbour sum `aggOf` (twice), the degree-normalised neighbour sum
    `gcnOf` (once), and lay each bias vector out as a one-row matrix; these are the same operations on the same
    operands as the specification's two aggregation functions spell, so each equation is by unfolding definitions.
  * Each region's output array is its layer's function (`conv`, `lin`, `head`) of what its input windows held on
    entry (the four layer theorems).
  * No stretch and no region writes an argument or the two rows of the edge array, so those read back to the launch
    memory through the fold.
  Composing these from the return backwards gives the network `net aggOf gcnOf` of the twelve arguments.
-/
import proofs.«120175_j56667798503738_1_alg».proof.Proof.Gen.KernelIdeal.Frame
import proofs.«120175_j56667798503738_1_alg».proof.Proof.HostFns
import proofs.«120175_j56667798503738_1_alg».proof.Proof.Layer0
import proofs.«120175_j56667798503738_1_alg».proof.Proof.Layer1
import proofs.«120175_j56667798503738_1_alg».proof.Proof.Layer2
import proofs.«120175_j56667798503738_1_alg».proof.Proof.Layer3
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open Cert.KernelIdeal Cert.KernelIdeal.Gen Cert.GNN

/-! # The host stretches, at any contents

Each stretch of host operations is a fold over the buffer contents it starts from. What it leaves in the buffers the
next region reads is one of the specification's functions of what it found: the neighbour sum `aggOf`, the
degree-normalised neighbour sum `gcnOf`, a bias vector laid out as a one-row matrix, the two rows of the edge
array. A buffer it does not write keeps its contents. -/

section Host

variable (V : Valuation τ sig (Elt Ideal))

/-- A vector recast as a one-row matrix is the vector laid out as a row: entry (0, j) of the cast is entry j. -/
theorem shapeCast_row {n : Nat} (b : RowVec n) (h : (⟨1, ![n]⟩ : Shape).ShapeCasts ⟨2, ![1, n]⟩) :
    shapeCast ⟨2, ![1, n]⟩ b h = row b := by
  funext i
  show shapeCast _ b h i = b (ix1 (i 1))
  conv_lhs => rw [eq_ix2 i]
  exact shapeCast_a_1a_apply b h (i 0) (i 1)

/-- A buffer none of the listed operations writes keeps its contents through them. -/
local macro "keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- What each earlier operation left in the operands of a joined list, read back one operand at a time. -/
local macro "results_rw" : tactic =>
  `(tactic| (repeat (first
               | rw [StableHlo.nullary_result] | rw [StableHlo.unary_result] | rw [StableHlo.binary_result] | rw [StableHlo.ternary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

/-! ## The first stretch: the edge rows, the neighbour sum of the input features, the first bias row -/

set_option maxHeartbeats 400000 in
/-- The source row of the edge array. -/
theorem host0_v1 : StableHlo.after (hostOps0 (F := Ideal)) V (Proc.devRef .tc main_v1)
    = Cert.ReferenceIdeal.Read.val_main_v1 (F := Ideal) (V (Proc.devRef .tc main_arg1)) := by
  after_results
  rfl

set_option maxHeartbeats 400000 in
/-- The destination row of the edge array. -/
theorem host0_v3 : StableHlo.after (hostOps0 (F := Ideal)) V (Proc.devRef .tc main_v3)
    = Cert.ReferenceIdeal.Read.val_main_v3 (F := Ideal) (V (Proc.devRef .tc main_arg1)) := by
  after_results
  rfl

set_option maxHeartbeats 1000000 in
/-- The neighbour sum of the node features over the edge array: the same gather and scatter-add, on the same
    operands, as `aggOf` spells. -/
theorem host0_v13 : (StableHlo.after (hostOps0 (F := Ideal)) V (Proc.devRef .tc main_v13) : NodeMat 64)
    = aggOf (V (Proc.devRef .tc main_arg0)) (V (Proc.devRef .tc main_arg1)) := by
  after_results
  rfl

set_option maxHeartbeats 400000 in
/-- The first bias vector as a one-row matrix. -/
theorem host0_v14 : (StableHlo.after (hostOps0 (F := Ideal)) V (Proc.devRef .tc main_v14) : RowMat 64)
    = row (V (Proc.devRef .tc main_arg3)) := by
  after_results
  exact shapeCast_row _ _

/-- The first stretch writes no argument. -/
theorem host0_arg0 : StableHlo.after (hostOps0 (F := Ideal)) V (Proc.devRef .tc main_arg0) = V (Proc.devRef .tc main_arg0) := by keeps hostOps0
theorem host0_arg1 : StableHlo.after (hostOps0 (F := Ideal)) V (Proc.devRef .tc main_arg1) = V (Proc.devRef .tc main_arg1) := by keeps hostOps0
theorem host0_arg2 : StableHlo.after (hostOps0 (F := Ideal)) V (Proc.devRef .tc main_arg2) = V (Proc.devRef .tc main_arg2) := by keeps hostOps0
theorem host0_arg4 : StableHlo.after (hostOps0 (F := Ideal)) V (Proc.devRef .tc main_arg4) = V (Proc.devRef .tc main_arg4) := by keeps hostOps0
theorem host0_arg5 : StableHlo.after (hostOps0 (F := Ideal)) V (Proc.devRef .tc main_arg5) = V (Proc.devRef .tc main_arg5) := by keeps hostOps0
theorem host0_arg6 : StableHlo.after (hostOps0 (F := Ideal)) V (Proc.devRef .tc main_arg6) = V (Proc.devRef .tc main_arg6) := by keeps hostOps0
theorem host0_arg7 : StableHlo.after (hostOps0 (F := Ideal)) V (Proc.devRef .tc main_arg7) = V (Proc.devRef .tc main_arg7) := by keeps hostOps0
theorem host0_arg8 : StableHlo.after (hostOps0 (F := Ideal)) V (Proc.devRef .tc main_arg8) = V (Proc.devRef .tc main_arg8) := by keeps hostOps0
theorem host0_arg9 : StableHlo.after (hostOps0 (F := Ideal)) V (Proc.devRef .tc main_arg9) = V (Proc.devRef .tc main_arg9) := by keeps hostOps0
theorem host0_arg10 : StableHlo.after (hostOps0 (F := Ideal)) V (Proc.devRef .tc main_arg10) = V (Proc.devRef .tc main_arg10) := by keeps hostOps0
theorem host0_arg11 : StableHlo.after (hostOps0 (F := Ideal)) V (Proc.devRef .tc main_arg11) = V (Proc.devRef .tc main_arg11) := by keeps hostOps0

/-! ## The second stretch: the neighbour sum of the first layer's output, the second bias row -/

set_option maxHeartbeats 1000000 in
/-- The neighbour sum of the first layer's output, once the two edge rows it reads are those of the edge array `e`. -/
theorem host1_v25 (e : Edges)
    (h1 : V (Proc.devRef .tc main_v1) = Cert.ReferenceIdeal.Read.val_main_v1 (F := Ideal) e)
    (h3 : V (Proc.devRef .tc main_v3) = Cert.ReferenceIdeal.Read.val_main_v3 (F := Ideal) e) :
    (StableHlo.after (hostOps1 (F := Ideal)) V (Proc.devRef .tc main_v25) : NodeMat 64)
      = aggOf (V (Proc.devRef .tc main_v15)) e := by
  after_results
  rw [h1, h3]
  rfl

set_option maxHeartbeats 400000 in
/-- The second bias vector as a one-row matrix. -/
theorem host1_v26 : (StableHlo.after (hostOps1 (F := Ideal)) V (Proc.devRef .tc main_v26) : RowMat 64)
    = row (V (Proc.devRef .tc main_arg6)) := by
  after_results
  exact shapeCast_row _ _

/-- The second stretch writes neither the first layer's output, nor the edge rows, nor an argument. -/
theorem host1_v15 : StableHlo.after (hostOps1 (F := Ideal)) V (Proc.devRef .tc main_v15) = V (Proc.devRef .tc main_v15) := by keeps hostOps1
theorem host1_v1 : StableHlo.after (hostOps1 (F := Ideal)) V (Proc.devRef .tc main_v1) = V (Proc.devRef .tc main_v1) := by keeps hostOps1
theorem host1_v3 : StableHlo.after (hostOps1 (F := Ideal)) V (Proc.devRef .tc main_v3) = V (Proc.devRef .tc main_v3) := by keeps hostOps1
theorem host1_arg5 : StableHlo.after (hostOps1 (F := Ideal)) V (Proc.devRef .tc main_arg5) = V (Proc.devRef .tc main_arg5) := by keeps hostOps1
theorem host1_arg7 : StableHlo.after (hostOps1 (F := Ideal)) V (Proc.devRef .tc main_arg7) = V (Proc.devRef .tc main_arg7) := by keeps hostOps1
theorem host1_arg8 : StableHlo.after (hostOps1 (F := Ideal)) V (Proc.devRef .tc main_arg8) = V (Proc.devRef .tc main_arg8) := by keeps hostOps1
theorem host1_arg9 : StableHlo.after (hostOps1 (F := Ideal)) V (Proc.devRef .tc main_arg9) = V (Proc.devRef .tc main_arg9) := by keeps hostOps1
theorem host1_arg10 : StableHlo.after (hostOps1 (F := Ideal)) V (Proc.devRef .tc main_arg10) = V (Proc.devRef .tc main_arg10) := by keeps hostOps1
theorem host1_arg11 : StableHlo.after (hostOps1 (F := Ideal)) V (Proc.devRef .tc main_arg11) = V (Proc.devRef .tc main_arg11) := by keeps hostOps1

/-! ## The third stretch: the degree-normalised neighbour sum, the last two bias rows -/

set_option maxHeartbeats 2000000 in
/-- The degree-normalised neighbour sum of the third layer's product, once the two edge rows it reads are those of
    the edge array `e`: the same self loops, degrees, scalings, gather and scatter-add as `gcnOf` spells. -/
theorem host3_v64 (e : Edges)
    (h1 : V (Proc.devRef .tc main_v1) = Cert.ReferenceIdeal.Read.val_main_v1 (F := Ideal) e)
    (h3 : V (Proc.devRef .tc main_v3) = Cert.ReferenceIdeal.Read.val_main_v3 (F := Ideal) e) :
    (StableHlo.after (hostOps3 (F := Ideal)) V (Proc.devRef .tc main_v64) : NodeMat 64)
      = gcnOf (V (Proc.devRef .tc main_v28)) e := by
  after_results_simp
  results_rw
  rw [h1, h3]
  rfl

set_option maxHeartbeats 1000000 in
/-- The third bias vector as a one-row matrix. -/
theorem host3_v65 : (StableHlo.after (hostOps3 (F := Ideal)) V (Proc.devRef .tc main_v65) : RowMat 64)
    = row (V (Proc.devRef .tc main_arg9)) := by
  after_results_simp
  exact shapeCast_row _ _

set_option maxHeartbeats 1000000 in
/-- The classifier's bias vector as a one-row matrix. -/
theorem host3_v66 : (StableHlo.after (hostOps3 (F := Ideal)) V (Proc.devRef .tc main_v66) : RowMat 10)
    = row (V (Proc.devRef .tc main_arg11)) := by
  after_results_simp
  exact shapeCast_row _ _

/-- The third stretch does not write the classifier's weights. -/
theorem host3_arg10 : StableHlo.after (hostOps3 (F := Ideal)) V (Proc.devRef .tc main_arg10) = V (Proc.devRef .tc main_arg10) := by keeps hostOps3

end Host

/-! # The walk: each boundary's contents as the specification's function of the launch memory

The run's buffer contents at the seven boundaries are a fold from the launch memory: a host stretch's fold, or a
region's arrays at what its write-backs leave and every other buffer as it was. Reading the fold back buffer by
buffer, each region's output is its layer of the specification applied to what the region's input windows held,
and those are, boundary by boundary, the specification's functions of the launch memory. -/

section Walk

variable (m : (ℓ : Loc nD τ sig) → Buf (Elt Ideal) ℓ) (ρ : Dev nD → PrngReg) (c : Dev nD)

/-- The first graph-convolution layer's output, of the launch memory. -/
abbrev out1 : NodeMat 64 :=
  conv (aggOf (m ((c : Thread nD τ).loc main_arg0)) (m ((c : Thread nD τ).loc main_arg1))) (m ((c : Thread nD τ).loc main_arg0))
    (m ((c : Thread nD τ).loc main_arg2)) (row (m ((c : Thread nD τ).loc main_arg3))) (m ((c : Thread nD τ).loc main_arg4))

/-- The second graph-convolution layer's output, of the launch memory. -/
abbrev out2 : NodeMat 64 :=
  conv (aggOf (out1 m c) (m ((c : Thread nD τ).loc main_arg1))) (out1 m c)
    (m ((c : Thread nD τ).loc main_arg5)) (row (m ((c : Thread nD τ).loc main_arg6))) (m ((c : Thread nD τ).loc main_arg7))

/-- The third layer's product, of the launch memory. -/
abbrev out3 : NodeMat 64 := lin (out2 m c) (m ((c : Thread nD τ).loc main_arg8))

/-! ## At the first region's entry (after the first stretch) -/

theorem W1_arg0 : W1 m ρ c (Proc.devRef .tc main_arg0) = m ((c : Thread nD τ).loc main_arg0) := host0_arg0 (W0 m ρ c)
theorem W1_arg2 : W1 m ρ c (Proc.devRef .tc main_arg2) = m ((c : Thread nD τ).loc main_arg2) := host0_arg2 (W0 m ρ c)
theorem W1_arg4 : W1 m ρ c (Proc.devRef .tc main_arg4) = m ((c : Thread nD τ).loc main_arg4) := host0_arg4 (W0 m ρ c)
theorem W1_arg5 : W1 m ρ c (Proc.devRef .tc main_arg5) = m ((c : Thread nD τ).loc main_arg5) := host0_arg5 (W0 m ρ c)
theorem W1_arg6 : W1 m ρ c (Proc.devRef .tc main_arg6) = m ((c : Thread nD τ).loc main_arg6) := host0_arg6 (W0 m ρ c)
theorem W1_arg7 : W1 m ρ c (Proc.devRef .tc main_arg7) = m ((c : Thread nD τ).loc main_arg7) := host0_arg7 (W0 m ρ c)
theorem W1_arg8 : W1 m ρ c (Proc.devRef .tc main_arg8) = m ((c : Thread nD τ).loc main_arg8) := host0_arg8 (W0 m ρ c)
theorem W1_arg9 : W1 m ρ c (Proc.devRef .tc main_arg9) = m ((c : Thread nD τ).loc main_arg9) := host0_arg9 (W0 m ρ c)
theorem W1_arg10 : W1 m ρ c (Proc.devRef .tc main_arg10) = m ((c : Thread nD τ).loc main_arg10) := host0_arg10 (W0 m ρ c)
theorem W1_arg11 : W1 m ρ c (Proc.devRef .tc main_arg11) = m ((c : Thread nD τ).loc main_arg11) := host0_arg11 (W0 m ρ c)
theorem W1_v1 : W1 m ρ c (Proc.devRef .tc main_v1)
    = Cert.ReferenceIdeal.Read.val_main_v1 (F := Ideal) (m ((c : Thread nD τ).loc main_arg1)) := host0_v1 (W0 m ρ c)
theorem W1_v3 : W1 m ρ c (Proc.devRef .tc main_v3)
    = Cert.ReferenceIdeal.Read.val_main_v3 (F := Ideal) (m ((c : Thread nD τ).loc main_arg1)) := host0_v3 (W0 m ρ c)
theorem W1_v13 : (W1 m ρ c (Proc.devRef .tc main_v13) : NodeMat 64)
    = aggOf (m ((c : Thread nD τ).loc main_arg0)) (m ((c : Thread nD τ).loc main_arg1)) := host0_v13 (W0 m ρ c)
theorem W1_v14 : (W1 m ρ c (Proc.devRef .tc main_v14) : RowMat 64) = row (m ((c : Thread nD τ).loc main_arg3)) :=
  host0_v14 (W0 m ρ c)

/-! ## At the first region's exit -/

/-- The first region leaves the first layer's output in its output array. -/
theorem W2_v15 : (W2 m ρ c (Proc.devRef .tc main_v15) : NodeMat 64) = out1 m c := by
  refine ((W2_arr m ρ c 5).trans (Layer0.final (V1 m ρ) c)).trans ?_
  show conv (W1 m ρ c (Proc.devRef .tc main_v13)) (W1 m ρ c (Proc.devRef .tc main_arg0)) (W1 m ρ c (Proc.devRef .tc main_arg2))
    (W1 m ρ c (Proc.devRef .tc main_v14)) (W1 m ρ c (Proc.devRef .tc main_arg4)) = _
  rw [W1_v13 m ρ c, W1_arg0 m ρ c, W1_arg2 m ρ c, W1_v14 m ρ c, W1_arg4 m ρ c]

theorem W2_v1 : W2 m ρ c (Proc.devRef .tc main_v1)
    = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3)
    = Cert.ReferenceIdeal.Read.val_main_v3 (F := Ideal) (m ((c : Thread nD τ).loc main_arg1)) :=
  (W2_of_ne m ρ c main_v3 (by decide)).trans (W1_v3 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)

/-! ## At the second region's entry (after the second stretch) -/

theorem W3_v15 : (W3 m ρ c (Proc.devRef .tc main_v15) : NodeMat 64) = out1 m c :=
  (host1_v15 (W2 m ρ c)).trans (W2_v15 m ρ c)
theorem W3_v25 : (W3 m ρ c (Proc.devRef .tc main_v25) : NodeMat 64)
    = aggOf (out1 m c) (m ((c : Thread nD τ).loc main_arg1)) :=
  (host1_v25 (W2 m ρ c) (m ((c : Thread nD τ).loc main_arg1)) (W2_v1 m ρ c) (W2_v3 m ρ c)).trans
    (congrArg (fun h : NodeMat 64 => aggOf h (m ((c : Thread nD τ).loc main_arg1))) (W2_v15 m ρ c))
theorem W3_v26 : (W3 m ρ c (Proc.devRef .tc main_v26) : RowMat 64) = row (m ((c : Thread nD τ).loc main_arg6)) :=
  (host1_v26 (W2 m ρ c)).trans (congrArg (fun b : RowVec 64 => row b) (W2_arg6 m ρ c))
theorem W3_arg5 : W3 m ρ c (Proc.devRef .tc main_arg5) = m ((c : Thread nD τ).loc main_arg5) :=
  (host1_arg5 (W2 m ρ c)).trans (W2_arg5 m ρ c)
theorem W3_arg7 : W3 m ρ c (Proc.devRef .tc main_arg7) = m ((c : Thread nD τ).loc main_arg7) :=
  (host1_arg7 (W2 m ρ c)).trans (W2_arg7 m ρ c)
theorem W3_arg8 : W3 m ρ c (Proc.devRef .tc main_arg8) = m ((c : Thread nD τ).loc main_arg8) :=
  (host1_arg8 (W2 m ρ c)).trans (W2_arg8 m ρ c)
theorem W3_arg9 : W3 m ρ c (Proc.devRef .tc main_arg9) = m ((c : Thread nD τ).loc main_arg9) :=
  (host1_arg9 (W2 m ρ c)).trans (W2_arg9 m ρ c)
theorem W3_arg10 : W3 m ρ c (Proc.devRef .tc main_arg10) = m ((c : Thread nD τ).loc main_arg10) :=
  (host1_arg10 (W2 m ρ c)).trans (W2_arg10 m ρ c)
theorem W3_arg11 : W3 m ρ c (Proc.devRef .tc main_arg11) = m ((c : Thread nD τ).loc main_arg11) :=
  (host1_arg11 (W2 m ρ c)).trans (W2_arg11 m ρ c)
theorem W3_v1 : W3 m ρ c (Proc.devRef .tc main_v1)
    = Cert.ReferenceIdeal.Read.val_main_v1 (F := Ideal) (m ((c : Thread nD τ).loc main_arg1)) :=
  (host1_v1 (W2 m ρ c)).trans (W2_v1 m ρ c)
theorem W3_v3 : W3 m ρ c (Proc.devRef .tc main_v3)
    = Cert.ReferenceIdeal.Read.val_main_v3 (F := Ideal) (m ((c : Thread nD τ).loc main_arg1)) :=
  (host1_v3 (W2 m ρ c)).trans (W2_v3 m ρ c)

/-! ## At the second region's exit, which is the third region's entry -/

/-- The second region leaves the second layer's output in its output array. -/
theorem W4_v27 : (W4 m ρ c (Proc.devRef .tc main_v27) : NodeMat 64) = out2 m c := by
  refine ((W4_arr m ρ c 5).trans (Layer1.final (V3 m ρ) c)).trans ?_
  show conv (W3 m ρ c (Proc.devRef .tc main_v25)) (W3 m ρ c (Proc.devRef .tc main_v15)) (W3 m ρ c (Proc.devRef .tc main_arg5))
    (W3 m ρ c (Proc.devRef .tc main_v26)) (W3 m ρ c (Proc.devRef .tc main_arg7)) = _
  rw [W3_v25 m ρ c, W3_v15 m ρ c, W3_arg5 m ρ c, W3_v26 m ρ c, W3_arg7 m ρ c]

theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_v1 : W4 m ρ c (Proc.devRef .tc main_v1)
    = Cert.ReferenceIdeal.Read.val_main_v1 (F := Ideal) (m ((c : Thread nD τ).loc main_arg1)) :=
  (W4_of_ne m ρ c main_v1 (by decide)).trans (W3_v1 m ρ c)
theorem W4_v3 : W4 m ρ c (Proc.devRef .tc main_v3)
    = Cert.ReferenceIdeal.Read.val_main_v3 (F := Ideal) (m ((c : Thread nD τ).loc main_arg1)) :=
  (W4_of_ne m ρ c main_v3 (by decide)).trans (W3_v3 m ρ c)

/-! ## At the third region's exit -/

/-- The third region leaves the third layer's product in its output array. -/
theorem W5_v28 : (W5 m ρ c (Proc.devRef .tc main_v28) : NodeMat 64) = out3 m c := by
  refine ((W5_arr m ρ c 2).trans (Layer2.final (V4 m ρ) c)).trans ?_
  show lin (W4 m ρ c (Proc.devRef .tc main_v27)) (W4 m ρ c (Proc.devRef .tc main_arg8)) = _
  rw [W4_v27 m ρ c, W4_arg8 m ρ c]

theorem W5_arg9 : W5 m ρ c (Proc.devRef .tc main_arg9) = m ((c : Thread nD τ).loc main_arg9) :=
  (W5_of_ne m ρ c main_arg9 (by decide)).trans (W4_arg9 m ρ c)
theorem W5_arg10 : W5 m ρ c (Proc.devRef .tc main_arg10) = m ((c : Thread nD τ).loc main_arg10) :=
  (W5_of_ne m ρ c main_arg10 (by decide)).trans (W4_arg10 m ρ c)
theorem W5_arg11 : W5 m ρ c (Proc.devRef .tc main_arg11) = m ((c : Thread nD τ).loc main_arg11) :=
  (W5_of_ne m ρ c main_arg11 (by decide)).trans (W4_arg11 m ρ c)
theorem W5_v1 : W5 m ρ c (Proc.devRef .tc main_v1)
    = Cert.ReferenceIdeal.Read.val_main_v1 (F := Ideal) (m ((c : Thread nD τ).loc main_arg1)) :=
  (W5_of_ne m ρ c main_v1 (by decide)).trans (W4_v1 m ρ c)
theorem W5_v3 : W5 m ρ c (Proc.devRef .tc main_v3)
    = Cert.ReferenceIdeal.Read.val_main_v3 (F := Ideal) (m ((c : Thread nD τ).loc main_arg1)) :=
  (W5_of_ne m ρ c main_v3 (by decide)).trans (W4_v3 m ρ c)

/-! ## At the last region's entry (after the third stretch) -/

theorem W6_v64 : (W6 m ρ c (Proc.devRef .tc main_v64) : NodeMat 64)
    = gcnOf (out3 m c) (m ((c : Thread nD τ).loc main_arg1)) :=
  (host3_v64 (W5 m ρ c) (m ((c : Thread nD τ).loc main_arg1)) (W5_v1 m ρ c) (W5_v3 m ρ c)).trans
    (congrArg (fun h : NodeMat 64 => gcnOf h (m ((c : Thread nD τ).loc main_arg1))) (W5_v28 m ρ c))
theorem W6_v65 : (W6 m ρ c (Proc.devRef .tc main_v65) : RowMat 64) = row (m ((c : Thread nD τ).loc main_arg9)) :=
  (host3_v65 (W5 m ρ c)).trans (congrArg (fun b : RowVec 64 => row b) (W5_arg9 m ρ c))
theorem W6_v66 : (W6 m ρ c (Proc.devRef .tc main_v66) : RowMat 10) = row (m ((c : Thread nD τ).loc main_arg11)) :=
  (host3_v66 (W5 m ρ c)).trans (congrArg (fun b : RowVec 10 => row b) (W5_arg11 m ρ c))
theorem W6_arg10 : W6 m ρ c (Proc.devRef .tc main_arg10) = m ((c : Thread nD τ).loc main_arg10) :=
  (host3_arg10 (W5 m ρ c)).trans (W5_arg10 m ρ c)

/-! ## At the return -/

/-- The last region leaves the classifier's output in the result buffer: the whole network of the launch memory. -/
theorem W7_result :
    Gen.W7 (F := Ideal) m ρ c (Proc.devRef .tc main_v67)
      = Cert.GNN.net Cert.GNN.aggOf Cert.GNN.gcnOf (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) := by
  refine ((W7_arr m ρ c 4).trans (Layer3.final (V6 m ρ) c)).trans ?_
  show head (W6 m ρ c (Proc.devRef .tc main_v64)) (W6 m ρ c (Proc.devRef .tc main_v65)) (W6 m ρ c (Proc.devRef .tc main_arg10))
    (W6 m ρ c (Proc.devRef .tc main_v66)) = _
  rw [W6_v64 m ρ c, W6_v65 m ρ c, W6_arg10 m ρ c, W6_v66 m ρ c]
  rfl

end Walk

end Cert.KernelIdeal.Hand

end
-- ==== Proof.lean ====
/-
  The certificate of a three-layer graph network: four Pallas kernels among host-side aggregations, against
  plain jnp.

  Both programs compute, on the extended reals, ONE function of the twelve argument arrays (`Cert.GNN.net`):
    h1  = relu (agg(x)·W1_rel + x·W1_root + b1)        agg = the sum over incoming edges of the source rows
    h2  = relu (agg(h1)·W2_rel + h1·W2_root + b2)
    out = (gcn(h2·W3) + b3)·W_lin + b_lin               gcn = the same sum over the edges and one self loop per
                                                         node, each row scaled by rsqrt(deg src)·rsqrt(deg dst)
  The two aggregations are the same host operations on the same operands in both programs and are never opened.
  The kernel program computes each dense step twenty rows-blocks at a time: a block of 5000 node rows against a
  whole weight matrix into a zero accumulator, which on the extended reals is the row-by-column sum, so the
  twenty blocks of each kernel's result are the blocks of one whole-array function and tile the result. The
  reference adds a layer's bias before the second product and the kernel after it: addition on the extended reals
  is commutative and associative, infinities included, so the two orders agree and the precondition (finite
  inputs) is never used. Rounding to bf16 on the way into a product is the identity on the extended reals. The
  claim's idealization conjunct is `True` (its ledger of rewrites is empty), so it holds trivially.

  The three frames are the generated frame runs (the reference's with its result dropped); the value claim puts the
  kernel program's run, with its result read through the fold of its seven segments, beside the reference's
  generated run.
-/
import proofs.«120175_j56667798503738_1_alg».proof.Defs
import proofs.«120175_j56667798503738_1_alg».proof.Proof.Gen.Kernel
import proofs.«120175_j56667798503738_1_alg».proof.Proof.Gen.Kernel.Skeleton
import proofs.«120175_j56667798503738_1_alg».proof.Proof.Gen.Kernel.Launch
import proofs.«120175_j56667798503738_1_alg».proof.Proof.Gen.Kernel.Points
import proofs.«120175_j56667798503738_1_alg».proof.Proof.Gen.Kernel.Frame
import proofs.«120175_j56667798503738_1_alg».proof.Proof.Gen.KernelIdeal
import proofs.«120175_j56667798503738_1_alg».proof.Proof.Gen.KernelIdeal.Skeleton
import proofs.«120175_j56667798503738_1_alg».proof.Proof.Gen.KernelIdeal.Launch
import proofs.«120175_j56667798503738_1_alg».proof.Proof.Gen.KernelIdeal.Points
import proofs.«120175_j56667798503738_1_alg».proof.Proof.Gen.KernelIdeal.Frame
import proofs.«120175_j56667798503738_1_alg».proof.Proof.Gen.ReferenceIdeal
import proofs.«120175_j56667798503738_1_alg».proof.Proof.Gen.ReferenceIdeal.Run
import proofs.«120175_j56667798503738_1_alg».proof.Proof.Gen.ReferenceIdeal.Read
import proofs.«120175_j56667798503738_1_alg».proof.Proof.Gen.Pre_finite_inputs
import proofs.«120175_j56667798503738_1_alg».proof.Proof.RefValue
import proofs.«120175_j56667798503738_1_alg».proof.Proof.KRun
import proofs.«120175_j56667798503738_1_alg».proof.Proof.KWalk
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the result array at `net` of the argument arrays: the kernel program by its run and the
    fold of its segments, the reference by its generated run and the reading of its stages; the memories agree on
    the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.GNN.net Cert.GNN.aggOf Cert.GNN.gcnOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun _ h c => ⟨(h c).1.trans (Cert.KernelIdeal.Hand.W7_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v81_eq, Cert.GNN.ref_eq]
    obtain ⟨a0, a1, a2, a3, a4, a5, a6, a7, a8, a9, a10, a11⟩ := hagree c
    rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
